-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x7 : Shape := ⟨2, ![100000, 7]⟩
abbrev S2x3200000 : Shape := ⟨2, ![2, 3200000]⟩
abbrev S7x32 : Shape := ⟨2, ![7, 32]⟩
abbrev S32 : Shape := ⟨1, ![32]⟩
abbrev S32x32 : Shape := ⟨2, ![32, 32]⟩
abbrev S64x1 : Shape := ⟨2, ![64, 1]⟩
abbrev S1 : Shape := ⟨1, ![1]⟩
abbrev S_ : Shape := ⟨0, ![]⟩

class Facts : Prop where
  bcast_S_S100000x7 : S_.BroadcastsInDim S100000x7 (![] : Fin 0 → Fin S100000x7.rank)
  reducesTo_S100000x7_S_d0_1 : S100000x7.ReducesTo [0, 1] S_
  h_S_ : 0 < S_.numel
  bcast_S_S7x32 : S_.BroadcastsInDim S7x32 (![] : Fin 0 → Fin S7x32.rank)
  reducesTo_S7x32_S_d0_1 : S7x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S32x32 .f32) (main_arg6 : FVec F S32 .f32) (main_arg7 : FVec F S64x1 .f32) (main_arg8 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg5
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x1 .f32 := Host.absf main_arg7
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg8 main_v33

def fn {F : FTy → Type} [FloatOps F] (main_arg0 : FVec F S100000x7 .f32) (main_arg1 : FVec F S100000x7 .f32) (main_arg2 : IVec S2x3200000 32) (main_arg3 : FVec F S7x32 .f32) (main_arg4 : FVec F S32 .f32) (main_arg5 : FVec F S32x32 .f32) (main_arg6 : FVec F S32 .f32) (main_arg7 : FVec F S64x1 .f32) (main_arg8 : FVec F S1 .f32) : IVec S_ 1 :=
  let main_v0 : FVec F S100000x7 .f32 := Host.absf main_arg0
  let main_cst : FVec F S_ .f32 := constant S_ .f32 0x7F800000#32
  let main_v1 : FVec F S100000x7 .f32 := broadcastInDim S100000x7 ![] bcast_S_S100000x7 main_cst
  let main_v2 : IVec S100000x7 1 := cmpf .olt main_v0 main_v1
  let main_c : IVec S_ 1 := constantI S_ 1 1#1
  let main_v3 : IVec S_ 1 := (fun x v => Host.reduce IntOp.andi x v reducesTo_S100000x7_S_d0_1 h_S_) main_v2 main_c
  let main_v4 : FVec F S100000x7 .f32 := Host.absf main_arg1
  let main_cst_0 : FVec F S_ .f32 := constant S_ .f32 0x7F800000#32
  let main_v5 : FVec F S100000x7 .f32 := broadcastInDim S100000x7 ![] bcast_S_S100000x7 main_cst_0
  let main_v6 : IVec S100000x7 1 := cmpf .olt main_v4 main_v5
  let main_c_1 : IVec S_ 1 := constantI S_ 1 1#1
  let main_v7 : IVec S_ 1 := (fun x v => Host.reduce IntOp.andi x v reducesTo_S100000x7_S_d0_1 h_S_) main_v6 main_c_1
  let main_v8 : IVec S_ 1 := andi main_v3 main_v7
  let main_v9 : FVec F S7x32 .f32 := Host.absf main_arg3
  let main_cst_2 : FVec F S_ .f32 := constant S_ .f32 0x7F800000#32
  let main_v10 : FVec F S7x32 .f32 := broadcastInDim S7x32 ![] bcast_S_S7x32 main_cst_2
  let main_v11 : IVec S7x32 1 := cmpf .olt main_v9 main_v10
  let main_c_3 : IVec S_ 1 := constantI S_ 1 1#1
  let main_v12 : IVec S_ 1 := (fun x v => Host.reduce IntOp.andi x v reducesTo_S7x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_v13 main_v16
-- ==== Kernel.lean ====
abbrev S100000x7 : Shape := ⟨2, ![100000, 7]⟩
abbrev S2x3200000 : Shape := ⟨2, ![2, 3200000]⟩
abbrev S7x32 : Shape := ⟨2, ![7, 32]⟩
abbrev S32 : Shape := ⟨1, ![32]⟩
abbrev S32x32 : Shape := ⟨2, ![32, 32]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S1x32 : Shape := ⟨2, ![1, 32]⟩
abbrev S100000x32 : Shape := ⟨2, ![100000, 32]⟩
abbrev S10000x7 : Shape := ⟨2, ![10000, 7]⟩
abbrev S10000x32 : Shape := ⟨2, ![10000, 32]⟩
abbrev S_ : Shape := ⟨0, ![]⟩
abbrev S100000 : Shape := ⟨1, ![100000]⟩
abbrev S3200000x1 : Shape := ⟨2, ![3200000, 1]⟩
abbrev S3200000x32 : Shape := ⟨2, ![3200000, 32]⟩
abbrev S100000x1 : Shape := ⟨2, ![100000, 1]⟩
abbrev S5000x32 : Shape := ⟨2, ![5000, 32]⟩
abbrev S5000x1 : Shape := ⟨2, ![5000, 1]⟩
abbrev S32x1 : Shape := ⟨2, ![32, 1]⟩
abbrev S1x1 : Shape := ⟨2, ![1, 1]⟩
abbrev S6400x32 : Shape := ⟨2, ![6400, 32]⟩
abbrev S6400x1 : Shape := ⟨2, ![6400, 1]⟩
abbrev S6400 : Shape := ⟨1, ![6400]⟩

abbrev nBuf : Space → Nat
  | .hbm => 91
  | .vmem => 25
  | .smem => 0
  | _ => 0

abbrev bufTy : (tb : Table) → Fin (tcTables nBuf tb) → BufTy
  | .hbm, ⟨0, _⟩ => ⟨S100000x7, .f32⟩
  | .hbm, ⟨1, _⟩ => ⟨S100000x7, .f32⟩
  | .hbm, ⟨2, _⟩ => ⟨S2x3200000, .i32⟩
  | .hbm, ⟨3, _⟩ => ⟨S7x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S64x1, .f32⟩
  | .hbm, ⟨8, _⟩ => ⟨S1, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S1x32, .f32⟩
  | .hbm, ⟨14, _⟩ => ⟨S100000x32, .f32⟩
  | .hbm, ⟨15, _⟩ => ⟨S_, .f32⟩
  | .hbm, ⟨16, _⟩ => ⟨S3200000, .f32⟩
  | .hbm, ⟨17, _⟩ => ⟨S_, .f32⟩
  | .hbm, ⟨18, _⟩ => ⟨S100000, .f32⟩
  | .hbm, ⟨19, _⟩ => ⟨S3200000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S3200000, .i32⟩
  | .hbm, ⟨27, _⟩ => ⟨S3200000, .i1⟩
  | .hbm, ⟨28, _⟩ => ⟨S_, .i32⟩
  | .hbm, ⟨29, _⟩ => ⟨S3200000, .i32⟩
  | .hbm, ⟨30, _⟩ => ⟨S3200000, .i32⟩
  | .hbm, ⟨31, _⟩ => ⟨S3200000, .i32⟩
  | .hbm, ⟨32, _⟩ => ⟨S3200000x1, .i32⟩
  | .hbm, ⟨33, _⟩ => ⟨S3200000, .f32⟩
  | .hbm, ⟨34, _⟩ => ⟨S_, .i32⟩
  | .hbm, ⟨35, _⟩ => ⟨S3200000, .i32⟩
  | .hbm, ⟨36, _⟩ => ⟨S3200000, .i1⟩
  | .hbm, ⟨37, _⟩ => ⟨S_, .i32⟩
  | .hbm, ⟨38, _⟩ => ⟨S3200000, .i32⟩
  | .hbm, ⟨39, _⟩ => ⟨S3200000, .i32⟩
  | .hbm, ⟨40, _⟩ => ⟨S3200000, .i32⟩
  | .hbm, ⟨41, _⟩ => ⟨S3200000x1, .i32⟩
  | .hbm, ⟨42, _⟩ => ⟨S3200000, .f32⟩
  | .hbm, ⟨43, _⟩ => ⟨S3200000, .f32⟩
  | .hbm, ⟨44, _⟩ => ⟨S_, .i32⟩
  | .hbm, ⟨45, _⟩ => ⟨S3200000, .i32⟩
  | .hbm, ⟨46, _⟩ => ⟨S3200000, .i1⟩
  | .hbm, ⟨47, _⟩ => ⟨S_, .i32⟩
  | .hbm, ⟨48, _⟩ => ⟨S3200000, .i32⟩
  | .hbm, ⟨49, _⟩ => ⟨S3200000, .i32⟩
  | .hbm, ⟨50, _⟩ => ⟨S3200000, .i32⟩
  | .hbm, ⟨51, _⟩ => ⟨S3200000x1, .i32⟩
  | .hbm, ⟨52, _⟩ => ⟨S3200000x32, .f32⟩
  | .hbm, ⟨53, _⟩ => ⟨S3200000x1, .f32⟩
  | .hbm, ⟨54, _⟩ => ⟨S3200000x32, .f32⟩
  | .hbm, ⟨55, _⟩ => ⟨S3200000x32, .f32⟩
  | .hbm, ⟨56, _⟩ => ⟨S_, .f32⟩
  | .hbm, ⟨57, _⟩ => ⟨S100000x32, .f32⟩
  | .hbm, ⟨58, _⟩ => ⟨S3200000x1, .i32⟩
  | .hbm, ⟨59, _⟩ => ⟨S100000x32, .f32⟩
  | .hbm, ⟨60, _⟩ => ⟨S100000, .f32⟩
  | .hbm, ⟨61, _⟩ => ⟨S100000x1, .f32⟩
  | .hbm, ⟨62, _⟩ => ⟨S1x32, .f32⟩
  | .hbm, ⟨63, _⟩ => ⟨S100000x32, .f32⟩
  | .hbm, ⟨64, _⟩ => ⟨S_, .i32⟩
  | .hbm, ⟨65, _⟩ => ⟨S3200000, .i32⟩
  | .hbm, ⟨66, _⟩ => ⟨S3200000, .i1⟩
  | .hbm, ⟨67, _⟩ => ⟨S_, .i32⟩
  | .hbm, ⟨68, _⟩ => ⟨S3200000, .i32⟩
  | .hbm, ⟨69, _⟩ => ⟨S3200000, .i32⟩
  | .hbm, ⟨70, _⟩ => ⟨S3200000, .i32⟩
  | .hbm, ⟨71, _⟩ => ⟨S3200000x1, .i32⟩
  | .hbm, ⟨72, _⟩ => ⟨S3200000x32, .f32⟩
  | .hbm, ⟨73, _⟩ => ⟨S_, .i32⟩
  | .hbm, ⟨74, _⟩ => ⟨S3200000, .i32⟩
  | .hbm, ⟨75, _⟩ => ⟨S3200000, .i1⟩
  | .hbm, ⟨76, _⟩ => ⟨S_, .i32⟩
  | .hbm, ⟨77, _⟩ => ⟨S3200000, .i32⟩
  | .hbm, ⟨78, _⟩ => ⟨S3200000, .i32⟩
  | .hbm, ⟨79, _⟩ => ⟨S3200000, .i32⟩
  | .hbm, ⟨80, _⟩ => ⟨S3200000x1, .i32⟩
  | .hbm, ⟨81, _⟩ => ⟨S3200000x32, .f32⟩
  | .hbm, ⟨82, _⟩ => ⟨S32x1, .f32⟩
  | .hbm, ⟨83, _⟩ => ⟨S32, .f32⟩
  | .hbm, ⟨84, _⟩ => ⟨S1x32, .f32⟩
  | .hbm, ⟨85, _⟩ => ⟨S32x1, .f32⟩
  | .hbm, ⟨86, _⟩ => ⟨S32, .f32⟩
  | .hbm, ⟨87, _⟩ => ⟨S1x32, .f32⟩
  | .hbm, ⟨88, _⟩ => ⟨S1x1, .f32⟩
  | .hbm, ⟨89, _⟩ => ⟨S3200000x1, .f32⟩
  | .hbm, ⟨90, _⟩ => ⟨S3200000, .f32⟩
  | .local _ .vmem, ⟨0, _⟩ => ⟨S10000x7, .f32⟩
  | .local _ .vmem, ⟨1, _⟩ => ⟨S10000x7, .f32⟩
  | .local _ .vmem, ⟨2, _⟩ => ⟨S7x32, .f32⟩
  | .local _ .vmem, ⟨3, _⟩ => ⟨S1x32, .f32⟩
  | .local _ .vmem, ⟨4, _⟩ => ⟨S32x32, .f32⟩
  | .local _ .vmem, ⟨5, _⟩ => ⟨S10000x32, .f32⟩
  | .local _ .vmem, ⟨6, _⟩ => ⟨S10000x32, .f32⟩
  | .local _ .vmem, ⟨7, _⟩ => ⟨S5000x32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x1, .f32⟩
  | .local _ .vmem, ⟨12, _⟩ => ⟨S5000x1, .f32⟩
  | .local _ .vmem, ⟨13, _⟩ => ⟨S1x32, .f32⟩
  | .local _ .vmem, ⟨14, _⟩ => ⟨S5000x32, .f32⟩
  | .local _ .vmem, ⟨15, _⟩ => ⟨S5000x32, .f32⟩
  | .local _ .vmem, ⟨16, _⟩ => ⟨S6400x32, .f32⟩
  | .local _ .vmem, ⟨17, _⟩ => ⟨S6400x32, .f32⟩
  | .local _ .vmem, ⟨18, _⟩ => ⟨S6400x32, .f32⟩
  | .local _ .vmem, ⟨19, _⟩ => ⟨S6400x32, .f32⟩
  | .local _ .vmem, ⟨20, _⟩ => ⟨S1x32, .f32⟩
  | .local _ .vmem, ⟨21, _⟩ => ⟨S1x32, .f32⟩
  | .local _ .vmem, ⟨22, _⟩ => ⟨S1x1, .f32⟩
  | .local _ .vmem, ⟨23, _⟩ => ⟨S6400x1, .f32⟩
  | .local _ .vmem, ⟨24, _⟩ => ⟨S6400x1, .f32⟩
  | _, _ => ⟨S100000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_8 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_c_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![500], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6400x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S6400x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  shapeCasts_S32_S1x32 : S32.ShapeCasts S1x32
  inb_S10000x7_S10000x7_0_0 : ∀ a, (![0, 0] : Fin 2 → Nat) a + S10000x7.size a ≤ S10000x7.size a
  h_S10000x7 : 0 < S10000x7.numel
  bitsLt_bf16_f32 : FTy.bits .bf16 < FTy.bits .f32
  inb_S7x32_S7x32_0_0 : ∀ a, (![0, 0] : Fin 2 → Nat) a + S7x32.size a ≤ S7x32.size a
  h_S7x32 : 0 < S7x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x32_S32x32_0_0 : ∀ a, (![0, 0] : Fin 2 → Nat) a + S32x32.size a ≤ S32x32.size a
  h_S32x32 : 0 < S32x32.numel
  inb_S10000x32_S10000x32_0_0 : ∀ a, (![0, 0] : Fin 2 → Nat) a + S10000x32.size a ≤ S10000x32.size a
  h_S10000x32 : 0 < S10000x32.numel
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  shapeCasts_S100000_S100000x1 : S100000.ShapeCasts S100000x1
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  broadcasts_S1x32_S5000x32 : S1x32.Broadcasts S5000x32
  slices_S64x1_S32x1_0_0 : S64x1.Slices ![0, 0] S32x1
  shapeCasts_S32x1_S32 : S32x1.ShapeCasts S32
  slices_S64x1_S32x1_32_0 : S64x1.Slices ![32, 0] S32x1
  shapeCasts_S1_S1x1 : S1.ShapeCasts S1x1
  inb_S6400x32_S6400x32_0_0 : ∀ a, (![0, 0] : Fin 2 → Nat) a + S6400x32.size a ≤ S6400x32.size a
  h_S6400x32 : 0 < S6400x32.numel
  shapeCasts_S6400x32_S6400x32 : S6400x32.ShapeCasts S6400x32
  broadcasts_S1x32_S6400x32 : S1x32.Broadcasts S6400x32
  reduces_S6400x32_S6400 : S6400x32.Reduces [1] S6400
  shapeCasts_S6400_S6400x1 : S6400.ShapeCasts S6400x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S6400x1 : S1x1.Broadcasts S6400x1
  inb_S6400x1_S6400x1_0_0 : ∀ a, (![0, 0] : Fin 2 → Nat) a + S6400x1.size a ≤ S6400x1.size a
  h_S6400x1 : 0 < S6400x1.numel
  shapeCasts_S3200000x1_S3200000 : S3200000x1.ShapeCasts S3200000
  dot_S10000x7_S7x32_S10000x32_1_0_0_1_n_n_wf : DotDims.WF S10000x7 S7x32 S10000x32 [1] [0] [0] [1] [] []
  dot_S10000x32_S32x32_S10000x32_1_0_0_1_n_n_wf : DotDims.WF S10000x32 S32x32 S10000x32 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x7.size a ≤ S100000x7.size a
  hwx0_0 : ∀ i : grid0.Coords, EltTy.bits .f32 = 32 ∨ (Rect.block (s := S100000x7) S10000x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x32.size a ≤ S7x32.size a
  hwx0_1 : ∀ i : grid0.Coords, EltTy.bits .f32 = 32 ∨ (Rect.block (s := S7x32) S7x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x32.size a ≤ S100000x32.size a
  hwx0_4 : ∀ i : grid0.Coords, EltTy.bits .f32 = 32 ∨ (Rect.block (s := S100000x32) S10000x32.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S100000x32.size a
  hwx1_4 : ∀ i : grid1.Coords, EltTy.bits .f32 = 32 ∨ (Rect.block (s := S100000x32) S5000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x32.size a ≤ S3200000x32.size a
  hwx2_0 : ∀ i : grid2.Coords, EltTy.bits .f32 = 32 ∨ (Rect.block (s := S3200000x32) S6400x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6400x32.size a ≤ S3200000x32.size a
  hwx2_1 : ∀ i : grid2.Coords, EltTy.bits .f32 = 32 ∨ (Rect.block (s := S3200000x32) S6400x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S6400x1.size a ≤ S3200000x1.size a
  hwx2_5 : ∀ i : grid2.Coords, EltTy.bits .f32 = 32 ∨ (Rect.block (s := S3200000x1) S6400x1.size (cc2_transform_5 i) (hinb2_5 i)).WholeWords (EltTy.packing .f32)

variable [Facts₀]

def dot_S10000x7_S7x32_S10000x32_1_0_0_1_n_n : DotDims S10000x7 S7x32 S10000x32 where
  lhsContracting := [1]
  rhsContracting := [0]
  lhsNonContracting := [0]
  rhsNonContracting := [1]
  lhsBatch := []
  rhsBatch := []
  wf := dot_S10000x7_S7x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf

abbrev win0_0 : Pipeline.Window sig grid0 :=
  Pipeline.Window.ofSpec (Memref.whole main_arg0) S10000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S7x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S10000x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v40) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S5000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v51) S6400x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S6400x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S6400x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x7 : Shape := ⟨2, ![100000, 7]⟩
abbrev S2x3200000 : Shape := ⟨2, ![2, 3200000]⟩
abbrev S7x32 : Shape := ⟨2, ![7, 32]⟩
abbrev S32 : Shape := ⟨1, ![32]⟩
abbrev S32x32 : Shape := ⟨2, ![32, 32]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S100000x32 : Shape := ⟨2, ![100000, 32]⟩
abbrev S1x32 : Shape := ⟨2, ![1, 32]⟩
abbrev S_ : Shape := ⟨0, ![]⟩
abbrev S100000 : Shape := ⟨1, ![100000]⟩
abbrev S3200000x1 : Shape := ⟨2, ![3200000, 1]⟩
abbrev S3200000x32 : Shape := ⟨2, ![3200000, 32]⟩
abbrev S100000x1 : Shape := ⟨2, ![100000, 1]⟩
abbrev S3200000x64 : Shape := ⟨2, ![3200000, 64]⟩
abbrev S1x1 : Shape := ⟨2, ![1, 1]⟩

abbrev nBuf : Space → Nat
  | .hbm => 109
  | .vmem => 0
  | .smem => 0
  | _ => 0

abbrev bufTy : (tb : Table) → Fin (tcTables nBuf tb) → BufTy
  | .hbm, ⟨0, _⟩ => ⟨S100000x7, .f32⟩
  | .hbm, ⟨1, _⟩ => ⟨S100000x7, .f32⟩
  | .hbm, ⟨2, _⟩ => ⟨S2x3200000, .i32⟩
  | .hbm, ⟨3, _⟩ => ⟨S7x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S64x1, .f32⟩
  | .hbm, ⟨8, _⟩ => ⟨S1, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S100000x32, .f32⟩
  | .hbm, ⟨14, _⟩ => ⟨S1x32, .f32⟩
  | .hbm, ⟨15, _⟩ => ⟨S100000x32, .f32⟩
  | .hbm, ⟨16, _⟩ => ⟨S100000x32, .f32⟩
  | .hbm, ⟨17, _⟩ => ⟨S_, .f32⟩
  | .hbm, ⟨18, _⟩ => ⟨S100000x32, .f32⟩
  | .hbm, ⟨19, _⟩ => ⟨S100000x32, .f32⟩
  | .hbm, ⟨20, _⟩ => ⟨S100000x32, .f32⟩
  | .hbm, ⟨21, _⟩ => ⟨S_, .f32⟩
  | .hbm, ⟨22, _⟩ => ⟨S3200000, .f32⟩
  | .hbm, ⟨23, _⟩ => ⟨S_, .f32⟩
  | .hbm, ⟨24, _⟩ => ⟨S100000, .f32⟩
  | .hbm, ⟨25, _⟩ => ⟨S3200000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S3200000, .i32⟩
  | .hbm, ⟨33, _⟩ => ⟨S3200000, .i1⟩
  | .hbm, ⟨34, _⟩ => ⟨S_, .i32⟩
  | .hbm, ⟨35, _⟩ => ⟨S3200000, .i32⟩
  | .hbm, ⟨36, _⟩ => ⟨S3200000, .i32⟩
  | .hbm, ⟨37, _⟩ => ⟨S3200000, .i32⟩
  | .hbm, ⟨38, _⟩ => ⟨S3200000x1, .i32⟩
  | .hbm, ⟨39, _⟩ => ⟨S3200000, .f32⟩
  | .hbm, ⟨40, _⟩ => ⟨S_, .i32⟩
  | .hbm, ⟨41, _⟩ => ⟨S3200000, .i32⟩
  | .hbm, ⟨42, _⟩ => ⟨S3200000, .i1⟩
  | .hbm, ⟨43, _⟩ => ⟨S_, .i32⟩
  | .hbm, ⟨44, _⟩ => ⟨S3200000, .i32⟩
  | .hbm, ⟨45, _⟩ => ⟨S3200000, .i32⟩
  | .hbm, ⟨46, _⟩ => ⟨S3200000, .i32⟩
  | .hbm, ⟨47, _⟩ => ⟨S3200000x1, .i32⟩
  | .hbm, ⟨48, _⟩ => ⟨S3200000, .f32⟩
  | .hbm, ⟨49, _⟩ => ⟨S3200000, .f32⟩
  | .hbm, ⟨50, _⟩ => ⟨S_, .i32⟩
  | .hbm, ⟨51, _⟩ => ⟨S3200000, .i32⟩
  | .hbm, ⟨52, _⟩ => ⟨S3200000, .i1⟩
  | .hbm, ⟨53, _⟩ => ⟨S_, .i32⟩
  | .hbm, ⟨54, _⟩ => ⟨S3200000, .i32⟩
  | .hbm, ⟨55, _⟩ => ⟨S3200000, .i32⟩
  | .hbm, ⟨56, _⟩ => ⟨S3200000, .i32⟩
  | .hbm, ⟨57, _⟩ => ⟨S3200000x1, .i32⟩
  | .hbm, ⟨58, _⟩ => ⟨S3200000x32, .f32⟩
  | .hbm, ⟨59, _⟩ => ⟨S3200000x1, .f32⟩
  | .hbm, ⟨60, _⟩ => ⟨S3200000x32, .f32⟩
  | .hbm, ⟨61, _⟩ => ⟨S3200000x32, .f32⟩
  | .hbm, ⟨62, _⟩ => ⟨S_, .f32⟩
  | .hbm, ⟨63, _⟩ => ⟨S100000x32, .f32⟩
  | .hbm, ⟨64, _⟩ => ⟨S3200000x1, .i32⟩
  | .hbm, ⟨65, _⟩ => ⟨S100000x32, .f32⟩
  | .hbm, ⟨66, _⟩ => ⟨S100000, .f32⟩
  | .hbm, ⟨67, _⟩ => ⟨S100000x1, .f32⟩
  | .hbm, ⟨68, _⟩ => ⟨S100000x32, .f32⟩
  | .hbm, ⟨69, _⟩ => ⟨S100000x32, .f32⟩
  | .hbm, ⟨70, _⟩ => ⟨S100000x32, .f32⟩
  | .hbm, ⟨71, _⟩ => ⟨S1x32, .f32⟩
  | .hbm, ⟨72, _⟩ => ⟨S100000x32, .f32⟩
  | .hbm, ⟨73, _⟩ => ⟨S100000x32, .f32⟩
  | .hbm, ⟨74, _⟩ => ⟨S_, .f32⟩
  | .hbm, ⟨75, _⟩ => ⟨S100000x32, .f32⟩
  | .hbm, ⟨76, _⟩ => ⟨S100000x32, .f32⟩
  | .hbm, ⟨77, _⟩ => ⟨S_, .i32⟩
  | .hbm, ⟨78, _⟩ => ⟨S3200000, .i32⟩
  | .hbm, ⟨79, _⟩ => ⟨S3200000, .i1⟩
  | .hbm, ⟨80, _⟩ => ⟨S_, .i32⟩
  | .hbm, ⟨81, _⟩ => ⟨S3200000, .i32⟩
  | .hbm, ⟨82, _⟩ => ⟨S3200000, .i32⟩
  | .hbm, ⟨83, _⟩ => ⟨S3200000, .i32⟩
  | .hbm, ⟨84, _⟩ => ⟨S3200000x1, .i32⟩
  | .hbm, ⟨85, _⟩ => ⟨S3200000x32, .f32⟩
  | .hbm, ⟨86, _⟩ => ⟨S_, .i32⟩
  | .hbm, ⟨87, _⟩ => ⟨S3200000, .i32⟩
  | .hbm, ⟨88, _⟩ => ⟨S3200000, .i1⟩
  | .hbm, ⟨89, _⟩ => ⟨S_, .i32⟩
  | .hbm, ⟨90, _⟩ => ⟨S3200000, .i32⟩
  | .hbm, ⟨91, _⟩ => ⟨S3200000, .i32⟩
  | .hbm, ⟨92, _⟩ => ⟨S3200000, .i32⟩
  | .hbm, ⟨93, _⟩ => ⟨S3200000x1, .i32⟩
  | .hbm, ⟨94, _⟩ => ⟨S3200000x32, .f32⟩
  | .hbm, ⟨95, _⟩ => ⟨S3200000x64, .f32⟩
  | .hbm, ⟨96, _⟩ => ⟨S3200000x1, .f32⟩
  | .hbm, ⟨97, _⟩ => ⟨S1x1, .f32⟩
  | .hbm, ⟨98, _⟩ => ⟨S3200000x1, .f32⟩
  | .hbm, ⟨99, _⟩ => ⟨S3200000x1, .f32⟩
  | .hbm, ⟨100, _⟩ => ⟨S3200000x1, .f32⟩
  | .hbm, ⟨101, _⟩ => ⟨S3200000x1, .f32⟩
  | .hbm, ⟨102, _⟩ => ⟨S_, .f32⟩
  | .hbm, ⟨103, _⟩ => ⟨S3200000x1, .f32⟩
  | .hbm, ⟨104, _⟩ => ⟨S3200000x1, .f32⟩
  | .hbm, ⟨105, _⟩ => ⟨S_, .f32⟩
  | .hbm, ⟨106, _⟩ => ⟨S3200000x1, .f32⟩
  | .hbm, ⟨107, _⟩ => ⟨S3200000x1, .f32⟩
  | .hbm, ⟨108, _⟩ => ⟨S3200000, .f32⟩
  | _, _ => ⟨S100000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_cst : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_3 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_call1_cst : Ref sig .tc := ⟨.hbm, 74, rfl⟩
abbrev main_call1_v0 : Ref sig .tc := ⟨.hbm, 75, rfl⟩
abbrev main_v53 : Ref sig .tc := ⟨.hbm, 76, rfl⟩
abbrev main_c_8 : Ref sig .tc := ⟨.hbm, 77, rfl⟩
abbrev main_v54 : Ref sig .tc := ⟨.hbm, 78, rfl⟩
abbrev main_v55 : Ref sig .tc := ⟨.hbm, 79, rfl⟩
abbrev main_c_9 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_10 : Ref sig .tc := ⟨.hbm, 86, rfl⟩
abbrev main_v61 : Ref sig .tc := ⟨.hbm, 87, rfl⟩
abbrev main_v62 : Ref sig .tc := ⟨.hbm, 88, rfl⟩
abbrev main_c_11 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_12 : Ref sig .tc := ⟨.hbm, 102, rfl⟩
abbrev main_v75 : Ref sig .tc := ⟨.hbm, 103, rfl⟩
abbrev main_v76 : Ref sig .tc := ⟨.hbm, 104, rfl⟩
abbrev main_cst_13 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x32_0_1 : S3200000x1.BroadcastsInDim S3200000x32 (![0, 1] : Fin 2 → Fin S3200000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  concatenates_S3200000x32_S3200000x32_S3200000x64_d1 : Shape.Concatenates [S3200000x32, S3200000x32] S3200000x64 1
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  bcast_S_S3200000x1 : S_.BroadcastsInDim S3200000x1 (![] : Fin 0 → Fin S3200000x1.rank)
  shapeCasts_S3200000x1_S3200000 : S3200000x1.ShapeCasts S3200000
  dot_S100000x7_S7x32_S100000x32_1_0_0_1_n_n_wf : DotDims.WF S100000x7 S7x32 S100000x32 [1] [0] [0] [1] [] []
  dot_S100000x32_S32x32_S100000x32_1_0_0_1_n_n_wf : DotDims.WF S100000x32 S32x32 S100000x32 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S3200000x64_S64x1_S3200000x1_1_0_0_1_n_n_wf : DotDims.WF S3200000x64 S64x1 S3200000x1 [1] [0] [0] [1] [] []

variable [Facts₀]

def dot_S100000x7_S7x32_S100000x32_1_0_0_1_n_n : DotDims S100000x7 S7x32 S100000x32 where
  lhsContracting := [1]
  rhsContracting := [0]
  lhsNonContracting := [0]
  rhsNonContracting := [1]
  lhsBatch := []
  rhsBatch := []
  wf := dot_S100000x7_S7x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S3200000x64_S64x1_S3200000x1_1_0_0_1_n_n : DotDims S3200000x64 S64x1 S3200000x1 where
  lhsContracting := [1]
  rhsContracting := [0]
  lhsNonContracting := [0]
  rhsNonContracting := [1]
  lhsBatch := []
  rhsBatch := []
  wf := dot_S3200000x64_S64x1_S3200000x1_1_0_0_1_n_n_wf

class Facts : Prop extends Facts₀ where

variable [Facts]
-- ==== Proof.KernelRun.lean ====
/-
  The idealized kernel's run with its result named. The program's frame argument ends with every unscoped buffer
  of each core at the contents the last boundary of @main leaves (`Gen.W7`: the launch memory folded through the
  four stretches of host operations and the three regions' write-backs). Read at the result buffer instead of
  being dropped, that gives the result as `Gen.W7 m ρ c` at the result's reference, beside the nine argument
  arrays unchanged.
-/
import proofs.«172608_j51359218925816_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run_named : θ_run defs (onTc (τ := τ) (main (F := F))) ⟨m, fun _ => 0, ρ⟩ (fun r => ∀ c : Dev nD,
      r.2.mem ((c.tc : Thread nD τ).loc main_v67) = W7 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v67 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Cert.KernelIdeal.RunValue

end
-- ==== Proof.Region0.lean ====
import proofs.«172608_j51359218925816_2_alg».proof.Proof.Gen.KernelIdeal.Frame
import proofs.«172608_j51359218925816_2_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge.Region0

open Idealize.ShloMosaic Idealize.ShloMosaic.TcCoe Idealize.SL.Sem
open Cert.KernelIdeal Cert.KernelIdeal.Gen

open Idealize.ShloMosaic.ValueIdx

/-! ## One row of the encoder followed by the first graph-convolution product -/

/-- Entry `q` of `max(x · Wenc + b, 0) · Wgcn` for one row `x` of seven features: the sum over the 32 hidden
    units `k` of the rectified encoder output at `k` times `Wgcn (k, q)`. -/
def encRow (x : Fin 7 → EReal) (wenc : (⟨2, ![7, 32]⟩ : Shape).Idx → EReal) (b : Fin 32 → EReal)
    (wgcn : (⟨2, ![32, 32]⟩ : Shape).Idx → EReal) (q : Fin 32) : EReal :=
  ∑ k : Fin 32, max ((∑ j : Fin 7, x j * wenc (ix2 j k)) + b k) (Ideal.ofBits .f32 0x00000000#32) * wgcn (ix2 k q)

/-! ## The kernel's two products read at an entry

Each operand index of a product with one contracted axis, coordinate by coordinate; then the product into the zero
accumulator as the sum over that axis. -/

theorem encode_dot_lhs0 (i : S10000x32.Idx) (r : dot_S10000x7_S7x32_S10000x32_1_0_0_1_n_n.contr.Idx) : (dot_S10000x7_S7x32_S10000x32_1_0_0_1_n_n.lhsIdx i r 0).val = (i 0).val := by
  unfold DotDims.lhsIdx
  rw [dif_neg (show ¬(0 : Fin S10000x7.rank) ∈ dot_S10000x7_S7x32_S10000x32_1_0_0_1_n_n.lhsBatch by decide), dif_pos (show (0 : Fin S10000x7.rank) ∈ dot_S10000x7_S7x32_S10000x32_1_0_0_1_n_n.lhsNonContracting by decide)]
  rfl
theorem encode_dot_lhs1 (i : S10000x32.Idx) (r : dot_S10000x7_S7x32_S10000x32_1_0_0_1_n_n.contr.Idx) : (dot_S10000x7_S7x32_S10000x32_1_0_0_1_n_n.lhsIdx i r 1).val = (r ⟨0, by decide⟩).val :=
  dot_S10000x7_S7x32_S10000x32_1_0_0_1_n_n.lhsIdx_val_of_single rfl i r
theorem encode_dot_rhs0 (i : S10000x32.Idx) (r : dot_S10000x7_S7x32_S10000x32_1_0_0_1_n_n.contr.Idx) : (dot_S10000x7_S7x32_S10000x32_1_0_0_1_n_n.rhsIdx i r 0).val = (r ⟨0, by decide⟩).val :=
  dot_S10000x7_S7x32_S10000x32_1_0_0_1_n_n.rhsIdx_val_of_single rfl i r
theorem encode_dot_rhs1 (i : S10000x32.Idx) (r : dot_S10000x7_S7x32_S10000x32_1_0_0_1_n_n.contr.Idx) : (dot_S10000x7_S7x32_S10000x32_1_0_0_1_n_n.rhsIdx i r 1).val = (i 1).val := by
  unfold DotDims.rhsIdx
  rw [dif_neg (show ¬(1 : Fin S7x32.rank) ∈ dot_S10000x7_S7x32_S10000x32_1_0_0_1_n_n.rhsBatch by decide), dif_pos (show (1 : Fin S7x32.rank) ∈ dot_S10000x7_S7x32_S10000x32_1_0_0_1_n_n.rhsNonContracting by decide)]
  rfl

/-- The first product of the body, a 10000×7 block times the 7×32 encoder weights into the zero accumulator,
    at `(p, q)`: the sum over the seven features. -/
theorem encode_dot_apply (a : FVec Ideal S10000x7 .bf16) (w : FVec Ideal S7x32 .bf16) (p : Fin 10000) (q : Fin 32) :
    matmul dot_S10000x7_S7x32_S10000x32_1_0_0_1_n_n none a w (constant (F := Ideal) S10000x32 .f32 0x00000000#32) (ix2 p q)
      = ∑ j : Fin 7, a (ix2 p j) * w (ix2 j q) := by
  show FloatOps.matmul dot_S10000x7_S7x32_S10000x32_1_0_0_1_n_n none a w (constant (F := Ideal) S10000x32 .f32 0x00000000#32) (ix2 p q) = _
  rw [Ideal.matmul_constant_zero_apply, ← Equiv.sum_comp (contrEquiv1 dot_S10000x7_S7x32_S10000x32_1_0_0_1_n_n 7 rfl rfl).symm]
  refine Finset.sum_congr rfl fun j _ => ?_
  have hk := contrEquiv1_symm_val dot_S10000x7_S7x32_S10000x32_1_0_0_1_n_n 7 rfl rfl j
  have el : dot_S10000x7_S7x32_S10000x32_1_0_0_1_n_n.lhsIdx (ix2 p q) ((contrEquiv1 dot_S10000x7_S7x32_S10000x32_1_0_0_1_n_n 7 rfl rfl).symm j) = ix2 p j := funext fun ax => Fin.ext (by
    match ax with
    | ⟨0, _⟩ => exact encode_dot_lhs0 _ _
    | ⟨1, _⟩ => exact (encode_dot_lhs1 _ _).trans hk)
  have er : dot_S10000x7_S7x32_S10000x32_1_0_0_1_n_n.rhsIdx (ix2 p q) ((contrEquiv1 dot_S10000x7_S7x32_S10000x32_1_0_0_1_n_n 7 rfl rfl).symm j) = ix2 j q := funext fun ax => Fin.ext (by
    match ax with
    | ⟨0, _⟩ => exact (encode_dot_rhs0 _ _).trans hk
    | ⟨1, _⟩ => exact encode_dot_rhs1 _ _)
  rw [el, er]

theorem gcn_dot_lhs0 (i : S10000x32.Idx) (r : dot_S10000x32_S32x32_S10000x32_1_0_0_1_n_n.contr.Idx) : (dot_S10000x32_S32x32_S10000x32_1_0_0_1_n_n.lhsIdx i r 0).val = (i 0).val := by
  unfold DotDims.lhsIdx
  rw [dif_neg (show ¬(0 : Fin S10000x32.rank) ∈ dot_S10000x32_S32x32_S10000x32_1_0_0_1_n_n.lhsBatch by decide), dif_pos (show (0 : Fin S10000x32.rank) ∈ dot_S10000x32_S32x32_S10000x32_1_0_0_1_n_n.lhsNonContracting by decide)]
  rfl
theorem gcn_dot_lhs1 (i : S10000x32.Idx) (r : dot_S10000x32_S32x32_S10000x32_1_0_0_1_n_n.contr.Idx) : (dot_S10000x32_S32x32_S10000x32_1_0_0_1_n_n.lhsIdx i r 1).val = (r ⟨0, by decide⟩).val :=
  dot_S10000x32_S32x32_S10000x32_1_0_0_1_n_n.lhsIdx_val_of_single rfl i r
theorem gcn_dot_rhs0 (i : S10000x32.Idx) (r : dot_S10000x32_S32x32_S10000x32_1_0_0_1_n_n.contr.Idx) : (dot_S10000x32_S32x32_S10000x32_1_0_0_1_n_n.rhsIdx i r 0).val = (r ⟨0, by decide⟩).val :=
  dot_S10000x32_S32x32_S10000x32_1_0_0_1_n_n.rhsIdx_val_of_single rfl i r
theorem gcn_dot_rhs1 (i : S10000x32.Idx) (r : dot_S10000x32_S32x32_S10000x32_1_0_0_1_n_n.contr.Idx) : (dot_S10000x32_S32x32_S10000x32_1_0_0_1_n_n.rhsIdx i r 1).val = (i 1).val := by
  unfold DotDims.rhsIdx
  rw [dif_neg (show ¬(1 : Fin S32x32.rank) ∈ dot_S10000x32_S32x32_S10000x32_1_0_0_1_n_n.rhsBatch by decide), dif_pos (show (1 : Fin S32x32.rank) ∈ dot_S10000x32_S32x32_S10000x32_1_0_0_1_n_n.rhsNonContracting by decide)]
  rfl

/-- The second product of the body, the 10000×32 rectified block times the 32×32 weights into the zero
    accumulator, at `(p, q)`: the sum over the 32 hidden units. -/
theorem gcn_dot_apply (a : FVec Ideal S10000x32 .bf16) (w : FVec Ideal S32x32 .bf16) (p : Fin 10000) (q : Fin 32) :
    matmul dot_S10000x32_S32x32_S10000x32_1_0_0_1_n_n none a w (constant (F := Ideal) S10000x32 .f32 0x00000000#32) (ix2 p q)
      = ∑ k : Fin 32, a (ix2 p k) * w (ix2 k q) := by
  show FloatOps.matmul dot_S10000x32_S32x32_S10000x32_1_0_0_1_n_n none a w (constant (F := Ideal) S10000x32 .f32 0x00000000#32) (ix2 p q) = _
  rw [Ideal.matmul_constant_zero_apply, ← Equiv.sum_comp (contrEquiv1 dot_S10000x32_S32x32_S10000x32_1_0_0_1_n_n 32 rfl rfl).symm]
  refine Finset.sum_congr rfl fun k _ => ?_
  have hk := contrEquiv1_symm_val dot_S10000x32_S32x32_S10000x32_1_0_0_1_n_n 32 rfl rfl k
  have el : dot_S10000x32_S32x32_S10000x32_1_0_0_1_n_n.lhsIdx (ix2 p q) ((contrEquiv1 dot_S10000x32_S32x32_S10000x32_1_0_0_1_n_n 32 rfl rfl).symm k) = ix2 p k := funext fun ax => Fin.ext (by
    match ax with
    | ⟨0, _⟩ => exact gcn_dot_lhs0 _ _
    | ⟨1, _⟩ => exact (gcn_dot_lhs1 _ _).trans hk)
  have er : dot_S10000x32_S32x32_S10000x32_1_0_0_1_n_n.rhsIdx (ix2 p q) ((contrEquiv1 dot_S10000x32_S32x32_S10000x32_1_0_0_1_n_n 32 rfl rfl).symm k) = ix2 k q := funext fun ax => Fin.ext (by
    match ax with
    | ⟨0, _⟩ => exact (gcn_dot_rhs0 _ _).trans hk
    | ⟨1, _⟩ => exact gcn_dot_rhs1 _ _)
  rw [el, er]

/-! ## The body's payload at an entry -/

/-- The value the body stores, at `(p, q)`: the row function of row `p` of the feature block, the encoder weights,
    the bias row and the graph-convolution weights. The roundings to bf16 are the identity on the extended reals. -/
theorem payload_apply (x0 : Vec Ideal S10000x7 .f32) (x1 : Vec Ideal S7x32 .f32) (x2 : Vec Ideal S1x32 .f32) (x3 : Vec Ideal S32x32 .f32)
    (p : Fin 10000) (q : Fin 32) :
    k0_pay1 x0 x1 x2 x3 (ix2 p q) = encRow (fun j => x0 (ix2 p j)) x1 (fun k => x2 (ix2 (0 : Fin 1) k)) x3 q := by
  unfold k0_pay1
  refine (gcn_dot_apply _ _ p q).trans ?_
  unfold encRow
  refine Finset.sum_congr rfl fun k _ => ?_
  refine congrArg (· * x3 (ix2 k q)) ?_
  show max (matmul dot_S10000x7_S7x32_S10000x32_1_0_0_1_n_n none (truncf .bf16 x0 bitsLt_bf16_f32) (truncf .bf16 x1 bitsLt_bf16_f32) (constant (F := Ideal) S10000x32 .f32 0x00000000#32) (ix2 p k)
      + broadcastTo S10000x32 (shapeCast S1x32 x2 shapeCasts_S1x32_S1x32) broadcasts_S1x32_S10000x32 (ix2 p k)) (Ideal.ofBits .f32 0x00000000#32) = _
  rw [encode_dot_apply, broadcastTo_1b_ab_apply, shapeCast_self]
  rfl

/-! ## The whole array the region computes -/

/-- The region's result as one function of the four arrays: entry `(r, q)` is the row function of row `r` of the features. -/
def encArr (a0 : (⟨2, ![100000, 7]⟩ : Shape).Idx → EReal) (a3 : (⟨2, ![7, 32]⟩ : Shape).Idx → EReal)
    (x4 : (⟨1, ![32]⟩ : Shape).Idx → EReal) (a5 : (⟨2, ![32, 32]⟩ : Shape).Idx → EReal) :
    (⟨2, ![100000, 32]⟩ : Shape).Idx → EReal :=
  fun i => encRow (fun j => a0 (ix2 (i 0) j)) a3 (fun k => x4 (ix1 k)) a5 (i 1)

/-- The payload of blocks that are the matching pieces of the four arrays — row `p` of the feature block is row
    `i 0` of the features, the weights whole, the bias row the bias vector — is the array function at `i`. -/
theorem block_value (x0 : Vec Ideal S10000x7 .f32) (x1 : Vec Ideal S7x32 .f32) (x2 : Vec Ideal S1x32 .f32) (x3 : Vec Ideal S32x32 .f32)
    (a0 : (⟨2, ![100000, 7]⟩ : Shape).Idx → EReal) (a3 : (⟨2, ![7, 32]⟩ : Shape).Idx → EReal)
    (x4 : (⟨1, ![32]⟩ : Shape).Idx → EReal) (a5 : (⟨2, ![32, 32]⟩ : Shape).Idx → EReal)
    (p : Fin 10000) (q : Fin 32) (i : (⟨2, ![100000, 32]⟩ : Shape).Idx)
    (h0 : ∀ j : Fin 7, x0 (ix2 p j) = a0 (ix2 (i 0) j)) (h1 : ∀ y, x1 y = a3 y)
    (h2 : ∀ k : Fin 32, x2 (ix2 (0 : Fin 1) k) = x4 (ix1 k)) (h3 : ∀ y, x3 y = a5 y) (hq : i 1 = q) :
    k0_pay1 x0 x1 x2 x3 (ix2 p q) = encArr a0 a3 x4 a5 i := by
  rw [payload_apply]
  unfold encArr
  rw [hq, funext h0, funext h1, funext h2, funext h3]

/-! ## From blocks to the array -/

theorem zero_off : (![0, 0] : Fin 2 → Nat) = fun _ => 0 := funext fun a => by fin_cases a <;> rfl

/-- The block index maps over the ten grid points: the feature window and the output window move down the rows
    with the point, the two weight windows and the bias window stay at the one block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` writes back is block `t` of the array function of the arrays as the region finds them. -/
theorem flushed_eq (V : (c : Dev nD) → (b : Ref sig .tc) → Buf (Elt Ideal) ((c : Thread nD τ).loc b)) (c : Dev nD)
    (x4 : (⟨1, ![32]⟩ : Shape).Idx → EReal) (hb : V c main_v4 = shapeCast S1x32 x4 shapeCasts_S32_S1x32) (t : Fin cfg0.N) :
    (dat0 (F := Ideal) V c).flushed 4 t
      = ((cfg0.win 4).blk t).view.read (Elt Ideal) (encArr (V c main_arg0) (V c main_arg3) x4 (V c main_arg5)) := by
  show (cfg0.win 4).cut (grid0.coords t) ((dat0 V c).after 4 t) = _
  rw [after0_4]
  unfold out0_4
  rw [View.canon_unit_zero zero_off]
  simp only [View.ld_unit_zero (S := S10000x7) zero_off, View.ld_unit_zero (S := S7x32) zero_off,
    View.ld_unit_zero (S := S1x32) zero_off, View.ld_unit_zero (S := S32x32) zero_off]
  obtain ⟨e00, e01, e10, e11, e20, e21, e30, e31, e40, e41⟩ := block_indices t
  funext y
  obtain ⟨p, q, rfl⟩ : ∃ (p : Fin 10000) (q : Fin 32), y = ix2 p q := ⟨y 0, y 1, eq_ix2 y⟩
  show k0_pay1 (iblk0 V c 0 t) (iblk0 V c 1 t) (iblk0 V c 2 t) (iblk0 V c 3 t) (ix2 p q)
    = encArr (V c main_arg0) (V c main_arg3) x4 (V c main_arg5) (((cfg0.win 4).blk t).view.emb (ix2 p q))
  refine block_value (iblk0 V c 0 t) (iblk0 V c 1 t) (iblk0 V c 2 t) (iblk0 V c 3 t) (V c main_arg0) (V c main_arg3) x4 (V c main_arg5)
    p q (((cfg0.win 4).blk t).view.emb (ix2 p q)) ?_ ?_ ?_ ?_ ?_
  · intro j
    show V c main_arg0 (((cfg0.win 0).blk t).view.emb (ix2 p j)) = V c main_arg0 (ix2 (((cfg0.win 4).blk t).view.emb (ix2 p q) 0) j)
    refine congrArg (V c main_arg0) (funext fun a => Fin.ext ?_)
    match a with
    | ⟨0, _⟩ => show win0_0.index t (0 : Fin 2) * 10000 + 1 * p.val = win0_4.index t (0 : Fin 2) * 10000 + 1 * p.val; omega
    | ⟨1, _⟩ => show win0_0.index t (1 : Fin 2) * 7 + 1 * j.val = j.val; omega
  · intro y
    show V c main_arg3 (((cfg0.win 1).blk t).view.emb y) = V c main_arg3 y
    refine congrArg (V c main_arg3) (funext fun a => Fin.ext ?_)
    match a with
    | ⟨0, _⟩ => show win0_1.index t (0 : Fin 2) * 7 + 1 * (y 0).val = (y 0).val; omega
    | ⟨1, _⟩ => show win0_1.index t (1 : Fin 2) * 32 + 1 * (y 1).val = (y 1).val; omega
  · intro k
    show V c main_v4 (((cfg0.win 2).blk t).view.emb (ix2 (0 : Fin 1) k)) = x4 (ix1 k)
    have he : ((cfg0.win 2).blk t).view.emb (ix2 (0 : Fin 1) k) = ix2 (0 : Fin 1) k := funext fun a => Fin.ext (by
      match a with
      | ⟨0, _⟩ => show win0_2.index t (0 : Fin 2) * 1 + 1 * 0 = 0; omega
      | ⟨1, _⟩ => show win0_2.index t (1 : Fin 2) * 32 + 1 * k.val = k.val; omega)
    rw [he, hb]
    exact shapeCast_a_1a_apply x4 shapeCasts_S32_S1x32 0 k
  · intro y
    show V c main_arg5 (((cfg0.win 3).blk t).view.emb y) = V c main_arg5 y
    refine congrArg (V c main_arg5) (funext fun a => Fin.ext ?_)
    match a with
    | ⟨0, _⟩ => show win0_3.index t (0 : Fin 2) * 32 + 1 * (y 0).val = (y 0).val; omega
    | ⟨1, _⟩ => show win0_3.index t (1 : Fin 2) * 32 + 1 * (y 1).val = (y 1).val; omega
  · refine Fin.ext ?_
    show win0_4.index t (1 : Fin 2) * 32 + 1 * q.val = q.val
    omega

/-- An index of the array is in point `t`'s output block iff each coordinate is in the block's range on its axis. -/
theorem mem_block (t : Fin cfg0.N) (i : S100000x32.Idx) :
    i ∈ ((cfg0.win 4).blk t).view.set ↔ ∀ a : Fin 2, win0_4.index t a * S10000x32.size a ≤ (i a).val ∧ (i a).val < win0_4.index t a * S10000x32.size a + S10000x32.size a := by
  show i ∈ ((View.whole main_v5).slice (win0_4.rect t)).set ↔ _
  rw [View.set_slice_whole, Rect.mem_set_unit]
  exact Iff.rfl

/-- The ten output blocks cover the array: row `r` is in the block of point `r / 10000`. -/
theorem covered (i : S100000x32.Idx) : ∃ t : Fin cfg0.N, (cfg0.win 4).flush t = true ∧ i ∈ ((cfg0.win 4).blk t).view.set := by
  have hi0 : (i 0).val < 100000 := (i 0).isLt
  have hi1 : (i 1).val < 32 := (i 1).isLt
  obtain ⟨t, ht⟩ : ∃ t : Fin cfg0.N, t.val = (i 0).val / 10000 := ⟨⟨(i 0).val / 10000, lt_of_lt_of_eq (by omega) N_0.symm⟩, rfl⟩
  obtain ⟨_, _, _, _, _, _, _, _, e40, e41⟩ := block_indices t
  refine ⟨t, flush0_4 t, ?_⟩
  rw [mem_block]
  intro a
  match a with
  | ⟨0, _⟩ => show win0_4.index t (0 : Fin 2) * 10000 ≤ (i 0).val ∧ (i 0).val < win0_4.index t (0 : Fin 2) * 10000 + 10000; omega
  | ⟨1, _⟩ => show win0_4.index t (1 : Fin 2) * 32 ≤ (i 1).val ∧ (i 1).val < win0_4.index t (1 : Fin 2) * 32 + 32; omega

/-- The output array after the ten points' write-backs is the array function of the arrays as the region finds them. -/
theorem array_eq (V : (c : Dev nD) → (b : Ref sig .tc) → Buf (Elt Ideal) ((c : Thread nD τ).loc b)) (c : Dev nD)
    (x4 : (⟨1, ![32]⟩ : Shape).Idx → EReal) (hb : V c main_v4 = shapeCast S1x32 x4 shapeCasts_S32_S1x32) :
    (dat0 (F := Ideal) V c).arrAt 4 cfg0.N = encArr (V c main_arg0) (V c main_arg3) x4 (V c main_arg5) :=
  (dat0 V c).arrAt_eq_of_cover 4 (encArr (V c main_arg0) (V c main_arg3) x4 (V c main_arg5)) (fun t _ => flushed_eq V c x4 hb t) covered

/-! ## The reference's stage is the same array function -/

open Cert.ReferenceIdeal.Read in
/-- The reference's second product of the rectified encoder output, read entry by entry through its stages, is the
    array function: the same expression tree, its indices spelt by coordinates. -/
theorem reference_eq (a0 : (⟨Cert.ReferenceIdeal.S100000x7, .f32⟩ : BufTy).Contents (Elt Ideal))
    (a3 : (⟨Cert.ReferenceIdeal.S7x32, .f32⟩ : BufTy).Contents (Elt Ideal))
    (x4 : (⟨Cert.ReferenceIdeal.S32, .f32⟩ : BufTy).Contents (Elt Ideal))
    (a5 : (⟨Cert.ReferenceIdeal.S32x32, .f32⟩ : BufTy).Contents (Elt Ideal)) :
    val_main_v9 (F := Ideal) a0 a3 x4 a5 = encArr a0 a3 x4 a5 := by
  funext i
  obtain ⟨r, q, rfl⟩ : ∃ (r : Fin 100000) (q : Fin 32), i = ix2 r q := ⟨i 0, i 1, eq_ix2 i⟩
  rw [val_main_v9_apply]
  unfold encArr encRow
  refine Finset.sum_congr rfl fun k _ => ?_
  have e9l : lidx_main_v9 (ix2 r q) k = ix2 r k := funext fun a => Fin.ext (by
    match a with
    | ⟨0, _⟩ => rfl
    | ⟨1, _⟩ => rfl)
  have e9r : ridx_main_v9 (ix2 r q) k = ix2 k q := funext fun a => Fin.ext (by
    match a with
    | ⟨0, _⟩ => rfl
    | ⟨1, _⟩ => rfl)
  have e4l : ∀ j : Fin 7, lidx_main_v4 (ix2 r k) j = ix2 r j := fun j => funext fun a => Fin.ext (by
    match a with
    | ⟨0, _⟩ => rfl
    | ⟨1, _⟩ => rfl)
  have e4r : ∀ j : Fin 7, ridx_main_v4 (ix2 r k) j = ix2 j k := fun j => funext fun a => Fin.ext (by
    match a with
    | ⟨0, _⟩ => rfl
    | ⟨1, _⟩ => rfl)
  have e5 : idx_main_v5 (idx_main_v6 (ix2 r k)) = ix1 k := funext fun a => Fin.ext (by
    match a with
    | ⟨0, _⟩ => rfl)
  rw [e9l, e9r, val_main_v8_apply, val_main_v7_apply, val_main_v4_apply, val_main_v6_apply, val_main_v5_apply,
    val_main_call0_v0_apply, val_main_call0_cst_apply]
  simp only [e4l, e4r, e5]
  rfl

/-! ## The region's output array is the reference's stage -/

theorem region0_eq (V : (c : Dev nD) → (b : Ref sig .tc) → Buf (Elt Ideal) ((c : Thread nD τ).loc b)) (c : Dev nD)
    (x4 : (⟨Cert.ReferenceIdeal.S32, .f32⟩ : BufTy).Contents (Elt Ideal))
    (hb : V c main_v4 = shapeCast S1x32 x4 shapeCasts_S32_S1x32) :
    (dat0 (F := Ideal) V c).arrAt 4 cfg0.N
      = Cert.ReferenceIdeal.Read.val_main_v9 (F := Ideal) (V c main_arg0) (V c main_arg3) x4 (V c main_arg5) :=
  (array_eq V c x4 hb).trans (reference_eq (V c main_arg0) (V c main_arg3) x4 (V c main_arg5)).symm

end Cert.Bridge.Region0

end
-- ==== Proof.Region1.lean ====
import proofs.«172608_j51359218925816_2_alg».proof.Proof.Gen.KernelIdeal.Frame
import proofs.«172608_j51359218925816_2_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge.Region1

open Idealize.ShloMosaic Idealize.ShloMosaic.TcCoe Idealize.SL.Sem
open Cert.KernelIdeal Cert.KernelIdeal.Gen
open Idealize.ShloMosaic.ValueIdx

/-! ## Layout operations read at an index -/

/-- A column `[a, 1]` broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The body's value at an index of its block -/

/-- The body's stored value at row `p`, lane `q` of its block: `max ((a + h · d) + b, 0)`, the column `d` read in
    row `p` and the row `b` read in lane `q`. -/
theorem pay_apply (a h : FVec Ideal S5000x32 .f32) (d : FVec Ideal S5000x1 .f32) (b : FVec Ideal S1x32 .f32)
    (p : Fin 5000) (q : Fin 32) :
    k1_pay1 a h d b (ix2 p q)
      = max (a (ix2 p q) + h (ix2 p q) * d (ix2 p (0 : Fin 1)) + b (ix2 (0 : Fin 1) q)) (Ideal.ofBits .f32 0x00000000#32) := by
  unfold k1_pay1
  rw [shapeCast_self, shapeCast_self, shapeCast_self, shapeCast_self]
  rw [maximumf_apply, addf_apply, addf_apply, mulf_apply, broadcast_apply]
  rw [broadcastTo_1b_ab_apply, broadcastTo_a1_ab_apply]
  rfl

/-! ## The region's closed form over its four input arrays -/

/-- `max ((a + h · d) + b, 0)` index by index: the column `d` read in the index's row, the row `b` in its lane. -/
abbrev combine (a h : S100000x32.Idx → Ideal .f32) (d : S100000x1.Idx → Ideal .f32) (b : S1x32.Idx → Ideal .f32) :
    S100000x32.Idx → Ideal .f32 :=
  fun i => max (a i + h i * d (ix2 (i 0) (0 : Fin 1)) + b (ix2 (0 : Fin 1) (i 1))) (Ideal.ofBits .f32 0x00000000#32)

theorem combine_apply (a h : S100000x32.Idx → Ideal .f32) (d : S100000x1.Idx → Ideal .f32) (b : S1x32.Idx → Ideal .f32)
    (P : Fin 100000) (q : Fin 32) :
    combine a h d b (ix2 P q)
      = max (a (ix2 P q) + h (ix2 P q) * d (ix2 P (0 : Fin 1)) + b (ix2 (0 : Fin 1) q)) (Ideal.ofBits .f32 0x00000000#32) := rfl

/-- The body's value at row `p`, lane `q` of its block is `combine` of the arrays at row `P`, lane `q`, once each block
    read there is the array's read at row `P`. -/
theorem pay_eq_combine (A H : S100000x32.Idx → Ideal .f32) (D : S100000x1.Idx → Ideal .f32) (B : S1x32.Idx → Ideal .f32)
    (a h : FVec Ideal S5000x32 .f32) (d : FVec Ideal S5000x1 .f32) (b : FVec Ideal S1x32 .f32)
    (p : Fin 5000) (q : Fin 32) (P : Fin 100000)
    (ha : a (ix2 p q) = A (ix2 P q)) (hh : h (ix2 p q) = H (ix2 P q))
    (hd : d (ix2 p (0 : Fin 1)) = D (ix2 P (0 : Fin 1)))
    (hb : b (ix2 (0 : Fin 1) q) = B (ix2 (0 : Fin 1) q)) :
    k1_pay1 a h d b (ix2 p q) = combine A H D B (ix2 P q) := by
  rw [pay_apply, combine_apply, ha, hh, hd, hb]

/-! ## From blocks to the array -/

section Blocks

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the 20 grid points: the two row-blocked inputs and the column move with the
    output's row block, the bias row stays at block (0, 0), and the output's row block is below 20. -/
theorem block_index_facts : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (0 : Fin 2) ≤ 19 ∧ win1_4.index t (1 : Fin 2) = 0 :=
  (by decide +kernel : ∀ t : Fin grid1.N, _)

/-- Every row block of the output is some point's. -/
theorem row_block_onto : ∀ q0 : Fin 20, ∃ t : Fin cfg1.N, win1_4.index t = ![q0.val, 0] :=
  (by decide +kernel : ∀ q0 : Fin 20, ∃ t : Fin grid1.N, win1_4.index t = ![q0.val, 0])

/-- What point `t` writes back is block `t` of `combine` of the four input arrays as the region finds them. -/
theorem flushed_eq_combine (c : Dev nD) (t : Fin cfg1.N) :
    (dat1 V c).flushed 4 t
      = ((cfg1.win 4).blk t).view.read (Elt Ideal) (combine (V c main_v40) (V c main_v5) (V c main_v42) (V c main_v43)) := by
  show (cfg1.win 4).cut (grid1.coords t) ((dat1 V c).after 4 t) = _
  rw [after1_4]
  unfold out1_4
  rw [View.canon_unit_zero zero_offsets]
  simp only [View.ld_unit_zero (S := S5000x32) zero_offsets, View.ld_unit_zero (S := S5000x1) zero_offsets, View.ld_unit_zero (S := S1x32) zero_offsets]
  obtain ⟨e00, e01, e10, e11, e20, e21, e30, e31, e40, e41⟩ := block_index_facts t
  refine funext fun (j : S5000x32.Idx) => ?_
  obtain ⟨p, q, rfl⟩ : ∃ (p : Fin 5000) (q : Fin 32), j = ix2 p q := ⟨j 0, j 1, eq_ix2 j⟩
  have hp : p.val < 5000 := p.isLt
  have hq : q.val < 32 := q.isLt
  obtain ⟨P, hP⟩ : ∃ P : Fin 100000, P.val = win1_4.index t (0 : Fin 2) * 5000 + p.val := ⟨⟨_, by omega⟩, rfl⟩
  have h4 : ((cfg1.win 4).blk t).view.emb (ix2 p q) = ix2 P q := by
    funext a; apply Fin.ext
    match a with
    | ⟨0, _⟩ => show win1_4.index t (0 : Fin 2) * 5000 + 1 * p.val = P.val; omega
    | ⟨1, _⟩ => show win1_4.index t (1 : Fin 2) * 32 + 1 * q.val = q.val; omega
  have h0 : ((cfg1.win 0).blk t).view.emb (ix2 p q) = ix2 P q := by
    funext a; apply Fin.ext
    match a with
    | ⟨0, _⟩ => show win1_0.index t (0 : Fin 2) * 5000 + 1 * p.val = P.val; omega
    | ⟨1, _⟩ => show win1_0.index t (1 : Fin 2) * 32 + 1 * q.val = q.val; omega
  have h1 : ((cfg1.win 1).blk t).view.emb (ix2 p q) = ix2 P q := by
    funext a; apply Fin.ext
    match a with
    | ⟨0, _⟩ => show win1_1.index t (0 : Fin 2) * 5000 + 1 * p.val = P.val; omega
    | ⟨1, _⟩ => show win1_1.index t (1 : Fin 2) * 32 + 1 * q.val = q.val; omega
  have h2 : ((cfg1.win 2).blk t).view.emb (ix2 p (0 : Fin 1)) = ix2 P (0 : Fin 1) := by
    funext a; apply Fin.ext
    match a with
    | ⟨0, _⟩ => show win1_2.index t (0 : Fin 2) * 5000 + 1 * p.val = P.val; omega
    | ⟨1, _⟩ => show win1_2.index t (1 : Fin 2) * 1 + 1 * 0 = 0; omega
  have h3 : ((cfg1.win 3).blk t).view.emb (ix2 (0 : Fin 1) q) = ix2 (0 : Fin 1) q := by
    funext a; apply Fin.ext
    match a with
    | ⟨0, _⟩ => show win1_3.index t (0 : Fin 2) * 1 + 1 * 0 = 0; omega
    | ⟨1, _⟩ => show win1_3.index t (1 : Fin 2) * 32 + 1 * q.val = q.val; omega
  show k1_pay1 (iblk1 V c 0 t) (iblk1 V c 1 t) (iblk1 V c 2 t) (iblk1 V c 3 t) (ix2 p q)
    = combine (V c main_v40) (V c main_v5) (V c main_v42) (V c main_v43) (((cfg1.win 4).blk t).view.emb (ix2 p q))
  rw [h4]
  refine pay_eq_combine (V c main_v40) (V c main_v5) (V c main_v42) (V c main_v43)
    (iblk1 V c 0 t) (iblk1 V c 1 t) (iblk1 V c 2 t) (iblk1 V c 3 t) p q P ?_ ?_ ?_ ?_
  · show V c main_v40 (((cfg1.win 0).blk t).view.emb (ix2 p q)) = _
    rw [h0]
  · show V c main_v5 (((cfg1.win 1).blk t).view.emb (ix2 p q)) = _
    rw [h1]
  · show V c main_v42 (((cfg1.win 2).blk t).view.emb (ix2 p (0 : Fin 1))) = _
    rw [h2]
  · show V c main_v43 (((cfg1.win 3).blk t).view.emb (ix2 (0 : Fin 1) q)) = _
    rw [h3]

/-- An index of the array is in point `t`'s block iff each coordinate is in the block's range on its axis. -/
theorem mem_block_iff (t : Fin cfg1.N) (i : S100000x32.Idx) :
    i ∈ ((cfg1.win 4).blk t).view.set ↔ ∀ a : Fin 2, win1_4.index t a * S5000x32.size a ≤ (i a).val
      ∧ (i a).val < win1_4.index t a * S5000x32.size a + S5000x32.size a := by
  show i ∈ ((View.whole main_v44).slice (win1_4.rect t)).set ↔ _
  rw [View.set_slice_whole, Rect.mem_set_unit]
  exact Iff.rfl

/-- The output's blocks tile the array: row `r` is in the block of the point whose row block is `r / 5000`. -/
theorem blocks_cover (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  obtain ⟨t, ht⟩ := row_block_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_block_iff]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 32 ≤ (i 1).val ∧ (i 1).val < win1_4.index t (1 : Fin 2) * 32 + 32
    omega

/-- The output array after the run is `combine` of the four input arrays as the region finds them. -/
theorem arr_eq_combine (c : Dev nD) :
    (dat1 V c).arrAt 4 cfg1.N = combine (V c main_v40) (V c main_v5) (V c main_v42) (V c main_v43) :=
  (dat1 V c).arrAt_eq_of_cover 4 _ (fun t _ => flushed_eq_combine V c t) blocks_cover

end Blocks

/-! ## The reference's stage at an index -/

open Cert.ReferenceIdeal.Read in
/-- The reference's stage at row `P`, lane `q`: the same tree, `max ((v44 + v9 · v45) + x6, 0)`, the squared inverse
    root degree read at row `P` and the bias at lane `q`. -/
theorem ref_apply (x0 : (⟨Cert.ReferenceIdeal.S100000x7, .f32⟩ : BufTy).Contents (Elt Ideal)) (x2 : (⟨Cert.ReferenceIdeal.S2x3200000, .i32⟩ : BufTy).Contents (Elt Ideal)) (x3 : (⟨Cert.ReferenceIdeal.S7x32, .f32⟩ : BufTy).Contents (Elt Ideal)) (x4 : (⟨Cert.ReferenceIdeal.S32, .f32⟩ : BufTy).Contents (Elt Ideal)) (x5 : (⟨Cert.ReferenceIdeal.S32x32, .f32⟩ : BufTy).Contents (Elt Ideal)) (x6 : (⟨Cert.ReferenceIdeal.S32, .f32⟩ : BufTy).Contents (Elt Ideal))
    (P : Fin 100000) (q : Fin 32) :
    val_main_v53 (F := Ideal) x0 x2 x3 x4 x5 x6 (ix2 P q)
      = max (val_main_v44 (F := Ideal) x0 x2 x3 x4 x5 (ix2 P q)
              + val_main_v9 (F := Ideal) x0 x3 x4 x5 (ix2 P q) * val_main_v45 (F := Ideal) x2 (ix1 P)
              + x6 (ix1 q)) (Ideal.ofBits .f32 0x00000000#32) := by
  have e1 : idx_main_v46 (idx_main_v47 (ix2 P q)) = ix1 P :=
    funext fun a => Fin.ext (by match a with | ⟨0, _⟩ => rfl)
  have e2 : idx_main_v50 (idx_main_v51 (ix2 P q)) = ix1 q :=
    funext fun a => Fin.ext (by match a with | ⟨0, _⟩ => rfl)
  rw [val_main_v53_apply, val_main_v52_apply, val_main_v49_apply, val_main_v48_apply, val_main_v47_apply,
    val_main_v46_apply, val_main_v51_apply, val_main_v50_apply, val_main_call1_v0_apply, val_main_call1_cst_apply,
    e1, e2]
  rfl

/-! ## The region's output array is the reference's stage -/

theorem region1_eq (V : (c : Dev nD) → (b : Ref sig .tc) → Buf (Elt Ideal) ((c : Thread nD τ).loc b)) (c : Dev nD)
    (x0 : (⟨Cert.ReferenceIdeal.S100000x7, .f32⟩ : BufTy).Contents (Elt Ideal)) (x2 : (⟨Cert.ReferenceIdeal.S2x3200000, .i32⟩ : BufTy).Contents (Elt Ideal)) (x3 : (⟨Cert.ReferenceIdeal.S7x32, .f32⟩ : BufTy).Contents (Elt Ideal)) (x4 : (⟨Cert.ReferenceIdeal.S32, .f32⟩ : BufTy).Contents (Elt Ideal)) (x5 : (⟨Cert.ReferenceIdeal.S32x32, .f32⟩ : BufTy).Contents (Elt Ideal)) (x6 : (⟨Cert.ReferenceIdeal.S32, .f32⟩ : BufTy).Contents (Elt Ideal))
    (hagg : V c main_v40 = Cert.ReferenceIdeal.Read.val_main_v44 (F := Ideal) x0 x2 x3 x4 x5)
    (hh2 : V c main_v5 = Cert.ReferenceIdeal.Read.val_main_v9 (F := Ideal) x0 x3 x4 x5)
    (hd : V c main_v42 = shapeCast S100000x1 (Cert.ReferenceIdeal.Read.val_main_v45 (F := Ideal) x2) shapeCasts_S100000_S100000x1)
    (hb : V c main_v43 = shapeCast S1x32 x6 shapeCasts_S32_S1x32) :
    (dat1 (F := Ideal) V c).arrAt 4 cfg1.N
      = Cert.ReferenceIdeal.Read.val_main_v53 (F := Ideal) x0 x2 x3 x4 x5 x6 := by
  refine (arr_eq_combine V c).trans (funext fun (i : S100000x32.Idx) => ?_)
  obtain ⟨P, q, rfl⟩ : ∃ (P : Fin 100000) (q : Fin 32), i = ix2 P q := ⟨i 0, i 1, eq_ix2 i⟩
  rw [combine_apply, ref_apply, hagg, hh2, hd, hb, shapeCast_a_a1_apply, shapeCast_a_1a_apply]

end Cert.Bridge.Region1

end
-- ==== Proof.Region2.lean ====
import proofs.«172608_j51359218925816_2_alg».proof.Proof.Gen.KernelIdeal.Frame
import proofs.«172608_j51359218925816_2_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge.Region2

open Idealize.ShloMosaic Idealize.ShloMosaic.TcCoe Idealize.SL.Sem
open Cert.KernelIdeal Cert.KernelIdeal.Gen

/-! # Region 2 — the edge scorer — as a whole array

score(e) = logistic(Σ_{k<32} hs(e,k)·ws(k) + Σ_{k<32} hd(e,k)·wd(k) + b) on the extended reals.
The kernel computes it in blocks of 6400 edges; the reference as 1 / (1 + exp(−(Σ_{k<64} [hs | hd](e,k)·w(k) + b))).
Two laws join them: a sum over 64 terms is the sum of its two halves of 32, and the logistic of x is
1 / (1 + exp(−x)) by definition. -/

section Lemmas
open Idealize.ShloMosaic.ValueIdx

/-! ## Reading the layout operations of the body at an index -/

/-- A lane sum from 0 of a [6400,32] vector, at row `p`, is the sum over the 32 lanes of that row. -/
theorem laneSum_apply (src : FVec Ideal S6400x32 .f32) (hφ : FKind.Formats .f32)
    (hacc : (0x00000000#32 : BitVec 32) = 0x00000000#32) (p : Fin 6400) :
    multiReduction .add [1] S6400 src 0x00000000#32 reduces_S6400x32_S6400 hφ hacc (ix1 p)
      = ∑ k : Fin 32, src (ix2 p k) := by
  refine (Ideal.multiReduction_add_single src 0x00000000#32 reduces_S6400x32_S6400 hφ hacc (ix1 p)).trans ?_
  refine Finset.sum_congr rfl fun k _ => congrArg src ?_
  funext a
  apply Fin.ext
  match a with
  | ⟨0, _⟩ => rfl
  | ⟨1, _⟩ => rfl

/-- A vector [6400] cast to a column [6400,1] reads, at row `p`, its entry `p`. -/
theorem colCast_apply {α : Type} (v : S6400.Idx → α) (p : Fin 6400) (q : Fin 1) :
    shapeCast S6400x1 v shapeCasts_S6400_S6400x1 (ix2 p q) = v (ix1 p) :=
  shapeCast_apply v shapeCasts_S6400_S6400x1 (ix2 p q) (ix1 p)
    (by rw [Shape.rowMajor_val_one, Shape.rowMajor_val_two]
        have hq : q.val < 1 := q.isLt
        show p.val = p.val * 1 + q.val
        omega)

/-- A row [1,32] broadcast down 6400 rows reads, at (p, k), its entry (0, k). -/
theorem rowBcast_apply {α : Type} (v : S1x32.Idx → α) (p : Fin 6400) (k : Fin 32) :
    broadcastTo S6400x32 v broadcasts_S1x32_S6400x32 (ix2 p k) = v (ix2 0 k) :=
  broadcastTo_apply v broadcasts_S1x32_S6400x32 (ix2 p k) (ix2 0 k) (fun a => match a with
    | ⟨0, _⟩ => by show 0 = if (1 : Nat) = 1 then 0 else _; rw [if_pos rfl]
    | ⟨1, _⟩ => by show k.val = if (32 : Nat) = 1 then 0 else k.val; rw [if_neg (by decide)])

/-- A cell [1,1] broadcast down a column [6400,1] reads the cell everywhere. -/
theorem cellBcast_apply {α : Type} (v : S1x1.Idx → α) (p : Fin 6400) (q : Fin 1) :
    broadcastTo S6400x1 v broadcasts_S1x1_S6400x1 (ix2 p q) = v (ix2 0 0) :=
  broadcastTo_apply v broadcasts_S1x1_S6400x1 (ix2 p q) (ix2 0 0) (fun a => match a with
    | ⟨0, _⟩ => by show 0 = if (1 : Nat) = 1 then 0 else _; rw [if_pos rfl]
    | ⟨1, _⟩ => by show 0 = if (1 : Nat) = 1 then 0 else _; rw [if_pos rfl])

/-- THE BODY'S PAYLOAD AT A ROW: the logistic of the two 32-term dot products of the row with the two weight rows,
    plus the bias cell. -/
theorem pay_apply (x0 x1 : Vec Ideal S6400x32 .f32) (x2 x3 : Vec Ideal S1x32 .f32) (x4 : Vec Ideal S1x1 .f32)
    (p : Fin 6400) (q : Fin 1) :
    k2_pay1 x0 x1 x2 x3 x4 (ix2 p q)
      = Ideal.logistic ((∑ k : Fin 32, x0 (ix2 p k) * x2 (ix2 0 k)) + (∑ k : Fin 32, x1 (ix2 p k) * x3 (ix2 0 k))
          + x4 (ix2 0 0)) := by
  unfold k2_pay1
  simp only [shapeCast_self]
  show Ideal.logistic (_ + _ + _) = _
  rw [colCast_apply, colCast_apply, laneSum_apply, laneSum_apply, cellBcast_apply]
  simp only [mulf_apply, rowBcast_apply]

/-! ## The score of an edge, as one function of the five arrays the region reads -/

/-- The score of edge `r`: the logistic of (row `r` of the source features · the source weight row)
    + (row `r` of the destination features · the destination weight row) + the bias. -/
def rowScore (hs hd : S3200000x32.Idx → EReal) (ws wd : S1x32.Idx → EReal) (b : S1x1.Idx → EReal) (r : Fin 3200000) : EReal :=
  Ideal.logistic ((∑ k : Fin 32, hs (ix2 r k) * ws (ix2 0 k)) + (∑ k : Fin 32, hd (ix2 r k) * wd (ix2 0 k)) + b (ix2 0 0))

/-- The column [3200000,1] of all the edges' scores. -/
def score (hs hd : S3200000x32.Idx → EReal) (ws wd : S1x32.Idx → EReal) (b : S1x1.Idx → EReal) : S3200000x1.Idx → EReal :=
  fun i => rowScore hs hd ws wd b (i 0)

/-- The body's payload at a row of its block is the score of the edge whose feature rows the block's row holds. -/
theorem pay_eq_rowScore (hs hd : S3200000x32.Idx → EReal) (ws wd : S1x32.Idx → EReal) (b : S1x1.Idx → EReal)
    (x0 x1 : Vec Ideal S6400x32 .f32) (x2 x3 : Vec Ideal S1x32 .f32) (x4 : Vec Ideal S1x1 .f32)
    (y : S6400x1.Idx) (r : Fin 3200000)
    (h0 : ∀ k : Fin 32, x0 (ix2 (y 0) k) = hs (ix2 r k))
    (h1 : ∀ k : Fin 32, x1 (ix2 (y 0) k) = hd (ix2 r k))
    (h2 : x2 = ws) (h3 : x3 = wd) (h4 : x4 = b) :
    k2_pay1 x0 x1 x2 x3 x4 y = rowScore hs hd ws wd b r := by
  subst h2 h3 h4
  obtain ⟨p, q, rfl⟩ : ∃ (p : Fin 6400) (q : Fin 1), y = ix2 p q := ⟨y 0, y 1, eq_ix2 y⟩
  have h0' : ∀ k : Fin 32, x0 (ix2 p k) = hs (ix2 r k) := h0
  have h1' : ∀ k : Fin 32, x1 (ix2 p k) = hd (ix2 r k) := h1
  rw [pay_apply]
  unfold rowScore
  simp only [h0', h1']

/-! ## From blocks to the array -/

theorem hz : (![0, 0] : Fin 2 → Nat) = fun _ => 0 := funext fun a => by fin_cases a <;> rfl

/-- The index maps at point `t`: the two feature windows and the output window are at block (t, 0);
    the two weight rows and the bias cell are whole, at block (0, 0). -/
theorem idx_facts (t : Fin cfg2.N) :
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 := by
  have hN : grid2.N = 500 := N_2
  have ht : t.val < 500 := hN ▸ t.isLt
  have hc : (grid2.coords t 0).val = t.val := by
    show t.val / grid2.stride 0 % 500 = t.val
    rw [show grid2.stride 0 = 1 from by decide, Nat.div_one]
    exact Nat.mod_eq_of_lt ht
  have hb : (BitVec.ofNat 32 (grid2.coords t 0).val).toNat = t.val := by
    rw [hc, BitVec.toNat_ofNat]
    exact Nat.mod_eq_of_lt (by omega)
  exact ⟨hb, rfl, hb, rfl, rfl, rfl, rfl, rfl, rfl, rfl, hb, rfl⟩

section Blocks
variable (V : (c : Dev nD) → (b : Ref sig .tc) → Buf (Elt Ideal) ((c : Thread nD τ).loc b)) (c : Dev nD)

/-- Row `x 0` of the source-feature window's block at point `t` is row `6400·t + x 0` of its array. -/
theorem srcBlock_apply (t : Fin cfg2.N) (x : S6400x32.Idx) (k : S3200000x32.Idx)
    (hk0 : (k 0).val = t.val * 6400 + (x 0).val) (hk1 : (k 1).val = (x 1).val) :
    (iblk2 V c 0 t : Vec Ideal S6400x32 .f32) x = (V c main_v51 : S3200000x32.Idx → EReal) k := by
  obtain ⟨e0, e1, -⟩ := idx_facts t
  unfold iblk2
  rw [View.read_apply]
  show V c main_v51 _ = V c main_v51 _
  refine congrArg (V c main_v51) (funext fun a => Fin.ext ?_)
  match a with
  | ⟨0, _⟩ => show win2_0.index t (0 : Fin 2) * 6400 + 1 * (x 0).val = (k 0).val; rw [e0, hk0]; omega
  | ⟨1, _⟩ => show win2_0.index t (1 : Fin 2) * 32 + 1 * (x 1).val = (k 1).val; rw [e1, hk1]; omega

/-- The same for the destination-feature window. -/
theorem dstBlock_apply (t : Fin cfg2.N) (x : S6400x32.Idx) (k : S3200000x32.Idx)
    (hk0 : (k 0).val = t.val * 6400 + (x 0).val) (hk1 : (k 1).val = (x 1).val) :
    (iblk2 V c 1 t : Vec Ideal S6400x32 .f32) x = (V c main_v58 : S3200000x32.Idx → EReal) k := by
  obtain ⟨-, -, e0, e1, -⟩ := idx_facts t
  unfold iblk2
  rw [View.read_apply]
  show V c main_v58 _ = V c main_v58 _
  refine congrArg (V c main_v58) (funext fun a => Fin.ext ?_)
  match a with
  | ⟨0, _⟩ => show win2_1.index t (0 : Fin 2) * 6400 + 1 * (x 0).val = (k 0).val; rw [e0, hk0]; omega
  | ⟨1, _⟩ => show win2_1.index t (1 : Fin 2) * 32 + 1 * (x 1).val = (k 1).val; rw [e1, hk1]; omega

/-- The source weight row's window is its whole array at every point. -/
theorem srcRow_eq (t : Fin cfg2.N) : (iblk2 V c 2 t : Vec Ideal S1x32 .f32) = (V c main_v61 : S1x32.Idx → EReal) := by
  obtain ⟨-, -, -, -, e0, e1, -⟩ := idx_facts t
  unfold iblk2
  funext x
  rw [View.read_apply]
  show V c main_v61 _ = V c main_v61 _
  refine congrArg (V c main_v61) (funext fun a => Fin.ext ?_)
  match a with
  | ⟨0, _⟩ => show win2_2.index t (0 : Fin 2) * 1 + 1 * (x 0).val = (x 0).val; rw [e0]; omega
  | ⟨1, _⟩ => show win2_2.index t (1 : Fin 2) * 32 + 1 * (x 1).val = (x 1).val; rw [e1]; omega

/-- The destination weight row's window is its whole array at every point. -/
theorem dstRow_eq (t : Fin cfg2.N) : (iblk2 V c 3 t : Vec Ideal S1x32 .f32) = (V c main_v64 : S1x32.Idx → EReal) := by
  obtain ⟨-, -, -, -, -, -, e0, e1, -⟩ := idx_facts t
  unfold iblk2
  funext x
  rw [View.read_apply]
  show V c main_v64 _ = V c main_v64 _
  refine congrArg (V c main_v64) (funext fun a => Fin.ext ?_)
  match a with
  | ⟨0, _⟩ => show win2_3.index t (0 : Fin 2) * 1 + 1 * (x 0).val = (x 0).val; rw [e0]; omega
  | ⟨1, _⟩ => show win2_3.index t (1 : Fin 2) * 32 + 1 * (x 1).val = (x 1).val; rw [e1]; omega

/-- The bias cell's window is its whole array at every point. -/
theorem biasCell_eq (t : Fin cfg2.N) : (iblk2 V c 4 t : Vec Ideal S1x1 .f32) = (V c main_v65 : S1x1.Idx → EReal) := by
  obtain ⟨-, -, -, -, -, -, -, -, e0, e1, -⟩ := idx_facts t
  unfold iblk2
  funext x
  rw [View.read_apply]
  show V c main_v65 _ = V c main_v65 _
  refine congrArg (V c main_v65) (funext fun a => Fin.ext ?_)
  match a with
  | ⟨0, _⟩ => show win2_4.index t (0 : Fin 2) * 1 + 1 * (x 0).val = (x 0).val; rw [e0]; omega
  | ⟨1, _⟩ => show win2_4.index t (1 : Fin 2) * 1 + 1 * (x 1).val = (x 1).val; rw [e1]; omega

/-- WHAT POINT `t` WRITES BACK is block `t` — rows 6400·t … 6400·t + 6399 — of the column of scores of the arrays
    as the region finds them. -/
theorem flushed_eq (t : Fin cfg2.N) :
    (dat2 (F := Ideal) V c).flushed 5 t = ((cfg2.win 5).blk t).view.read (Elt Ideal)
      (score (V c main_v51) (V c main_v58) (V c main_v61) (V c main_v64) (V c main_v65)) := by
  show (cfg2.win 5).cut (grid2.coords t) ((dat2 V c).after 5 t) = _
  rw [after2_5]
  unfold out2_5
  rw [View.canon_unit_zero hz]
  simp only [View.ld_unit_zero (S := S6400x32) hz, View.ld_unit_zero (S := S1x32) hz, View.ld_unit_zero (S := S1x1) hz]
  obtain ⟨-, -, -, -, -, -, -, -, -, -, e0, e1⟩ := idx_facts t
  funext j
  rw [View.read_apply]
  have hr : ((((cfg2.win 5).blk t).view.emb j) 0).val = t.val * 6400 + (j 0).val := by
    show win2_5.index t (0 : Fin 2) * 6400 + 1 * (j 0).val = _
    rw [e0]; omega
  show k2_pay1 (iblk2 V c 0 t) (iblk2 V c 1 t) (iblk2 V c 2 t) (iblk2 V c 3 t) (iblk2 V c 4 t) j
      = rowScore (V c main_v51) (V c main_v58) (V c main_v61) (V c main_v64) (V c main_v65) ((((cfg2.win 5).blk t).view.emb j) 0)
  refine pay_eq_rowScore _ _ _ _ _ _ _ _ _ _ j _ (fun k => ?_) (fun k => ?_) (srcRow_eq V c t) (dstRow_eq V c t) (biasCell_eq V c t)
  · exact srcBlock_apply V c t _ _ hr rfl
  · exact dstBlock_apply V c t _ _ hr rfl

end Blocks

section Final
variable (V : (c : Dev nD) → (b : Ref sig .tc) → Buf (Elt Ideal) ((c : Thread nD τ).loc b)) (c : Dev nD)

/-- An index of the output array is in point `t`'s block iff each coordinate is in the block's range on its axis. -/
theorem mem_blk (t : Fin cfg2.N) (i : S3200000x1.Idx) :
    i ∈ ((cfg2.win 5).blk t).view.set ↔ ∀ a : Fin 2, win2_5.index t a * S6400x1.size a ≤ (i a).val ∧ (i a).val < win2_5.index t a * S6400x1.size a + S6400x1.size a := by
  show i ∈ ((View.whole main_v66).slice (win2_5.rect t)).set ↔ _
  rw [View.set_slice_whole, Rect.mem_set_unit]
  exact Iff.rfl

/-- THE BLOCKS COVER THE ARRAY: row `r` is in the block of point `r / 6400` (3200000 = 500 · 6400), and every point
    writes its block back. -/
theorem cover (i : S3200000x1.Idx) :
    ∃ t : Fin cfg2.N, (cfg2.win 5).flush t = true ∧ i ∈ ((cfg2.win 5).blk t).view.set := by
  have hi0 : (i 0).val < 3200000 := (i 0).isLt
  have hi1 : (i 1).val < 1 := (i 1).isLt
  have hN : grid2.N = 500 := N_2
  obtain ⟨t, htv⟩ : ∃ t : Fin cfg2.N, t.val = (i 0).val / 6400 :=
    ⟨⟨(i 0).val / 6400, by show (i 0).val / 6400 < grid2.N; rw [hN]; omega⟩, rfl⟩
  obtain ⟨-, -, -, -, -, -, -, -, -, -, e0, e1⟩ := idx_facts t
  refine ⟨t, flush2_5 t, ?_⟩
  rw [mem_blk]
  intro a
  match a with
  | ⟨0, _⟩ =>
    show win2_5.index t (0 : Fin 2) * 6400 ≤ (i 0).val ∧ (i 0).val < win2_5.index t (0 : Fin 2) * 6400 + 6400
    rw [e0, htv]; omega
  | ⟨1, _⟩ =>
    show win2_5.index t (1 : Fin 2) * 1 ≤ (i 1).val ∧ (i 1).val < win2_5.index t (1 : Fin 2) * 1 + 1
    rw [e1]; omega

/-- THE OUTPUT ARRAY AFTER THE RUN is the column of scores of the five arrays as the region finds them. -/
theorem final : (dat2 (F := Ideal) V c).arrAt 5 cfg2.N
    = score (V c main_v51) (V c main_v58) (V c main_v61) (V c main_v64) (V c main_v65) :=
  (dat2 (F := Ideal) V c).arrAt_eq_of_cover 5 _ (fun t _ => flushed_eq V c t) cover

end Final

/-! ## The reference's stages, read at an index -/

section Reference
open Cert.ReferenceIdeal.Read

/-- The word `0x3F800000` is the float 1. -/
theorem ofBits_one_f32 : Ideal.ofBits .f32 0x3F800000#32 = 1 := by
  simp [Ideal.ofBits, Ideal.ieee, -EReal.coe_mul]; norm_num

/-- Rows 0–31 of the weight column [64,1], sliced, cast to a vector and cast to a row [1,32]: entry (0, k) is
    the column's entry (k, 0). -/
theorem srcWeights_apply (x7 : S64x1.Idx → EReal) (k : Fin 32) (k' : S64x1.Idx)
    (h0 : (k' 0).val = k.val) (h1 : (k' 1).val = 0) :
    shapeCast S1x32 (shapeCast S32 (extractStridedSlice S32x1 ![0, 0] x7 slices_S64x1_S32x1_0_0) shapeCasts_S32x1_S32)
      shapeCasts_S32_S1x32 (ix2 0 k) = x7 k' := by
  refine (shapeCast_apply _ shapeCasts_S32_S1x32 (ix2 0 k) (ix1 k)
    (by rw [Shape.rowMajor_val_one, Shape.rowMajor_val_two]; show k.val = 0 * 32 + k.val; omega)).trans ?_
  refine (shapeCast_apply _ shapeCasts_S32x1_S32 (ix1 k) (ix2 k 0)
    (by rw [Shape.rowMajor_val_two, Shape.rowMajor_val_one]; show k.val * 1 + 0 = k.val; omega)).trans ?_
  exact extractStridedSlice_apply ![0, 0] x7 slices_S64x1_S32x1_0_0 (ix2 k 0) k' (fun a => match a with
    | ⟨0, _⟩ => by show (k' 0).val = 0 + k.val; omega
    | ⟨1, _⟩ => by show (k' 1).val = 0 + 0; omega)

/-- Rows 32–63 likewise: entry (0, k) is the column's entry (32 + k, 0). -/
theorem dstWeights_apply (x7 : S64x1.Idx → EReal) (k : Fin 32) (k' : S64x1.Idx)
    (h0 : (k' 0).val = 32 + k.val) (h1 : (k' 1).val = 0) :
    shapeCast S1x32 (shapeCast S32 (extractStridedSlice S32x1 ![32, 0] x7 slices_S64x1_S32x1_32_0) shapeCasts_S32x1_S32)
      shapeCasts_S32_S1x32 (ix2 0 k) = x7 k' := by
  refine (shapeCast_apply _ shapeCasts_S32_S1x32 (ix2 0 k) (ix1 k)
    (by rw [Shape.rowMajor_val_one, Shape.rowMajor_val_two]; show k.val = 0 * 32 + k.val; omega)).trans ?_
  refine (shapeCast_apply _ shapeCasts_S32x1_S32 (ix1 k) (ix2 k 0)
    (by rw [Shape.rowMajor_val_two, Shape.rowMajor_val_one]; show k.val * 1 + 0 = k.val; omega)).trans ?_
  exact extractStridedSlice_apply ![32, 0] x7 slices_S64x1_S32x1_32_0 (ix2 k 0) k' (fun a => match a with
    | ⟨0, _⟩ => by show (k' 0).val = 32 + k.val; omega
    | ⟨1, _⟩ => by show (k' 1).val = 0 + 0; omega)

/-- The bias [1] cast to a cell [1,1] reads its one entry. -/
theorem biasCell_apply (x8 : S1.Idx → EReal) (k' : S1.Idx) :
    shapeCast S1x1 x8 shapeCasts_S1_S1x1 (ix2 0 0) = x8 k' := by
  refine (shapeCast_apply x8 shapeCasts_S1_S1x1 (ix2 0 0) k'
    (by rw [Shape.rowMajor_val_one, Shape.rowMajor_val_two]
        have h : (k' 0).val < 1 := (k' 0).isLt
        show (k' 0).val = 0 * 1 + 0; omega))

/-- The joined row [y₁ | y₂] (two [3200000,32] pieces along axis 1) at a column below 32 reads the first piece. -/
theorem joinedRow_left (y1 y2 : Cert.ReferenceIdeal.S3200000x32.Idx → EReal) (r : Fin 3200000) (k : Fin 32)
    (h : Shape.Concatenates [Cert.ReferenceIdeal.S3200000x32, Cert.ReferenceIdeal.S3200000x32] Cert.ReferenceIdeal.S3200000x64 1)
    (j : Cert.ReferenceIdeal.S3200000x64.Idx) (hj0 : (j 0).val = r.val) (hj1 : (j 1).val = k.val) :
    concatenate Cert.ReferenceIdeal.S3200000x64 1 [⟨Cert.ReferenceIdeal.S3200000x32, y1⟩, ⟨Cert.ReferenceIdeal.S3200000x32, y2⟩]
      h j = y1 (ix2 r k) :=
  concatenate_pair_apply_left 1 y1 y2 h j rfl (ix2 r k) (fun b => match b with
    | ⟨0, _⟩ => hj0.symm
    | ⟨1, _⟩ => hj1.symm)

/-- At a column 32 + k it reads the second piece at column k. -/
theorem joinedRow_right (y1 y2 : Cert.ReferenceIdeal.S3200000x32.Idx → EReal) (r : Fin 3200000) (k : Fin 32)
    (h : Shape.Concatenates [Cert.ReferenceIdeal.S3200000x32, Cert.ReferenceIdeal.S3200000x32] Cert.ReferenceIdeal.S3200000x64 1)
    (j : Cert.ReferenceIdeal.S3200000x64.Idx) (hj0 : (j 0).val = r.val) (hj1 : (j 1).val = 32 + k.val) :
    concatenate Cert.ReferenceIdeal.S3200000x64 1 [⟨Cert.ReferenceIdeal.S3200000x32, y1⟩, ⟨Cert.ReferenceIdeal.S3200000x32, y2⟩]
      h j = y2 (ix2 r k) :=
  concatenate_pair_apply_right 1 y1 y2 h j rfl rfl (ix2 r k)
    (fun b hb => match b, hb with
      | ⟨0, _⟩, _ => hj0.symm
      | ⟨1, _⟩, hb => absurd rfl hb)
    (by show k.val + 32 = (j 1).val; omega)

/-- The column of scores at row `r`. -/
theorem score_apply (hs hd : S3200000x32.Idx → EReal) (ws wd : S1x32.Idx → EReal) (b : S1x1.Idx → EReal)
    (r : Fin 3200000) (q : Fin 1) : score hs hd ws wd b (ix2 r q) = rowScore hs hd ws wd b r := rfl

/-- THE REFERENCE'S COLUMN OF SCORES (its stage before the final reshape) is the column of scores of its two gathered
    stages, the two halves of the weight column and the bias: the 64-term dot product of the joined row [hs | hd]
    with the weight column is the sum of its two 32-term halves, and 1 / (1 + exp (−x)) is the logistic of x. -/
theorem ref_eq_score (x0 : (⟨Cert.ReferenceIdeal.S100000x7, .f32⟩ : BufTy).Contents (Elt Ideal)) (x2 : (⟨Cert.ReferenceIdeal.S2x3200000, .i32⟩ : BufTy).Contents (Elt Ideal)) (x3 : (⟨Cert.ReferenceIdeal.S7x32, .f32⟩ : BufTy).Contents (Elt Ideal)) (x4 : (⟨Cert.ReferenceIdeal.S32, .f32⟩ : BufTy).Contents (Elt Ideal)) (x5 : (⟨Cert.ReferenceIdeal.S32x32, .f32⟩ : BufTy).Contents (Elt Ideal)) (x6 : (⟨Cert.ReferenceIdeal.S32, .f32⟩ : BufTy).Contents (Elt Ideal)) (x7 : (⟨Cert.ReferenceIdeal.S64x1, .f32⟩ : BufTy).Contents (Elt Ideal)) (x8 : (⟨Cert.ReferenceIdeal.S1, .f32⟩ : BufTy).Contents (Elt Ideal)) :
    (val_main_v78 (F := Ideal) x0 x2 x3 x4 x5 x6 x7 x8 : S3200000x1.Idx → EReal)
      = score (val_main_v60 (F := Ideal) x0 x2 x3 x4 x5 x6) (val_main_v67 (F := Ideal) x0 x2 x3 x4 x5 x6)
          (shapeCast S1x32 (shapeCast S32 (extractStridedSlice S32x1 ![0, 0] x7 slices_S64x1_S32x1_0_0) shapeCasts_S32x1_S32) shapeCasts_S32_S1x32)
          (shapeCast S1x32 (shapeCast S32 (extractStridedSlice S32x1 ![32, 0] x7 slices_S64x1_S32x1_32_0) shapeCasts_S32x1_S32) shapeCasts_S32_S1x32)
          (shapeCast S1x1 x8 shapeCasts_S1_S1x1) := by
  funext i
  obtain ⟨r, q, rfl⟩ : ∃ (r : Fin 3200000) (q : Fin 1), i = ix2 r q := ⟨i 0, i 1, eq_ix2 i⟩
  have hq : q.val = 0 := by have := q.isLt; omega
  rw [score_apply, val_main_v78_apply, val_main_v77_apply, val_main_cst_13_apply, val_main_v76_apply, val_main_v75_apply,
    val_main_cst_12_apply, val_main_v74_apply, val_main_v73_apply, val_main_v72_apply, val_main_v69_apply,
    val_main_v71_apply, val_main_v70_apply]
  unfold rowScore Ideal.logistic val_main_v68
  simp only [Ideal.hostDivf_def, Ideal.ofBits_def, Ideal.addf_def, Ideal.hostUnary_exp_def, Ideal.hostNegf_def,
    Ideal.negf_def, ofBits_one_f32]
  refine congrArg (fun z => Ideal.div 1 (1 + Ideal.exp (-z))) ?_
  refine congrArg₂ (· + ·) ?_ ?_
  · show ∑ k : Fin (32 + 32), _ = _
    rw [Fin.sum_univ_add]
    refine congrArg₂ (· + ·) (Finset.sum_congr rfl fun k _ => ?_) (Finset.sum_congr rfl fun k _ => ?_)
    · refine congrArg₂ (· * ·) ?_ ?_
      · exact joinedRow_left _ _ r k _ _ rfl rfl
      · exact (srcWeights_apply x7 k _ rfl hq).symm
    · refine congrArg₂ (· * ·) ?_ ?_
      · exact joinedRow_right _ _ r k _ _ rfl rfl
      · exact (dstWeights_apply x7 k _ rfl hq).symm
  · exact (biasCell_apply x8 _).symm

end Reference

end Lemmas

/-- REGION 2 IS THE REFERENCE'S RESULT STAGE: its output column after the run is the column of scores of the arrays
    it finds at entry; those are the reference's gathered stages, weight halves and bias by hypothesis, whose column
    of scores is the reference's stage before its final reshape; the same reshape [3200000,1] → [3200000] of both. -/
theorem region2_eq (V : (c : Dev nD) → (b : Ref sig .tc) → Buf (Elt Ideal) ((c : Thread nD τ).loc b)) (c : Dev nD)
    (x0 : (⟨Cert.ReferenceIdeal.S100000x7, .f32⟩ : BufTy).Contents (Elt Ideal)) (x2 : (⟨Cert.ReferenceIdeal.S2x3200000, .i32⟩ : BufTy).Contents (Elt Ideal)) (x3 : (⟨Cert.ReferenceIdeal.S7x32, .f32⟩ : BufTy).Contents (Elt Ideal)) (x4 : (⟨Cert.ReferenceIdeal.S32, .f32⟩ : BufTy).Contents (Elt Ideal)) (x5 : (⟨Cert.ReferenceIdeal.S32x32, .f32⟩ : BufTy).Contents (Elt Ideal)) (x6 : (⟨Cert.ReferenceIdeal.S32, .f32⟩ : BufTy).Contents (Elt Ideal)) (x7 : (⟨Cert.ReferenceIdeal.S64x1, .f32⟩ : BufTy).Contents (Elt Ideal)) (x8 : (⟨Cert.ReferenceIdeal.S1, .f32⟩ : BufTy).Contents (Elt Ideal))
    (hs : V c main_v51 = Cert.ReferenceIdeal.Read.val_main_v60 (F := Ideal) x0 x2 x3 x4 x5 x6)
    (hd : V c main_v58 = Cert.ReferenceIdeal.Read.val_main_v67 (F := Ideal) x0 x2 x3 x4 x5 x6)
    (hws : V c main_v61 = shapeCast S1x32 (shapeCast S32 (extractStridedSlice S32x1 ![0, 0] x7 slices_S64x1_S32x1_0_0) shapeCasts_S32x1_S32) shapeCasts_S32_S1x32)
    (hwd : V c main_v64 = shapeCast S1x32 (shapeCast S32 (extractStridedSlice S32x1 ![32, 0] x7 slices_S64x1_S32x1_32_0) shapeCasts_S32x1_S32) shapeCasts_S32_S1x32)
    (hb : V c main_v65 = shapeCast S1x1 x8 shapeCasts_S1_S1x1) :
    shapeCast S3200000 ((dat2 (F := Ideal) V c).arrAt 5 cfg2.N) shapeCasts_S3200000x1_S3200000
      = Cert.ReferenceIdeal.Read.val_main_v79 (F := Ideal) x0 x2 x3 x4 x5 x6 x7 x8 := by
  rw [final V c, hs, hd, hws, hwd, hb]
  unfold Cert.ReferenceIdeal.Read.val_main_v79
  exact congrArg (fun y => shapeCast S3200000 y shapeCasts_S3200000x1_S3200000)
    (ref_eq_score x0 x2 x3 x4 x5 x6 x7 x8).symm

end Cert.Bridge.Region2

end
-- ==== Proof.Fold.lean ====
/-
  The idealized kernel's result as a function of its arguments. @main is three regions among four stretches of
  host operations; the contents of a core's buffers at each boundary are a fold from the launch memory. Walking that
  fold back from the result buffer: the result is the last region's output column cast to a vector; that region
  reads two gathers of the second region's output and three re-laid pieces of the scorer's weights; the second
  region reads the aggregate, the squared inverse root degree and the first region's output, all of which the host
  operations between compute from the first region's output and the edge list exactly as the reference does.
  Each region's output array is the matching stage of the reference (the three region lemmas), and each host
  stretch is the reference's own operations on those stages, so the result is the reference's result stage of the
  launch arguments.
-/
import proofs.«172608_j51359218925816_2_alg».proof.Proof.Gen.KernelIdeal.Frame
import proofs.«172608_j51359218925816_2_alg».proof.Proof.Gen.ReferenceIdeal.Read
import proofs.«172608_j51359218925816_2_alg».proof.Proof.Region0
import proofs.«172608_j51359218925816_2_alg».proof.Proof.Region1
import proofs.«172608_j51359218925816_2_alg».proof.Proof.Region2
import Idealize.ShloMosaic.Lib.StableHlo.Run

set_option maxRecDepth 16384

noncomputable section

namespace Cert.Bridge.Fold

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg) (c : Dev nD)

/-! ## Before the first region: the edge list's two rows, and the arguments -/

theorem W1_v1 : W1 m ρ c (Proc.devRef .tc main_v1) = val_main_v1 (F := Ideal) (m ((c : Thread nD τ).loc main_arg2)) := by
  show after hostOps0 (W0 m ρ c) (Proc.devRef .tc main_v1) = _
  after_results_simp
  rfl

theorem W1_v3 : W1 m ρ c (Proc.devRef .tc main_v3) = val_main_v3 (F := Ideal) (m ((c : Thread nD τ).loc main_arg2)) := by
  show after hostOps0 (W0 m ρ c) (Proc.devRef .tc main_v3) = _
  after_results_simp
  rfl

theorem W1_v4 : W1 m ρ c (Proc.devRef .tc main_v4) = shapeCast S1x32 (m ((c : Thread nD τ).loc main_arg4)) shapeCasts_S32_S1x32 := by
  show after hostOps0 (W0 m ρ c) (Proc.devRef .tc main_v4) = _
  after_results_simp
  rfl

theorem W1_arg (b : Ref sig .tc) (hb : b = main_arg0 ∨ b = main_arg3 ∨ b = main_arg5 ∨ b = main_arg6 ∨ b = main_arg7 ∨ b = main_arg8) :
    W1 m ρ c (Proc.devRef .tc b) = m ((c : Thread nD τ).loc b) := by
  show after hostOps0 (W0 m ρ c) (Proc.devRef .tc b) = _
  rcases hb with rfl | rfl | rfl | rfl | rfl | rfl <;> (after_results_simp <;> rfl)

/-- An argument no region and no host operation writes is, at the first region's exit too, what was launched. -/
theorem W2_arg (b : Ref sig .tc) (hb : b = main_arg6 ∨ b = main_arg7 ∨ b = main_arg8) :
    W2 m ρ c (Proc.devRef .tc b) = m ((c : Thread nD τ).loc b) := by
  rcases hb with rfl | rfl | rfl
  · exact (W2_of_ne m ρ c main_arg6 (by decide)).trans (W1_arg m ρ c main_arg6 (by simp))
  · exact (W2_of_ne m ρ c main_arg7 (by decide)).trans (W1_arg m ρ c main_arg7 (by simp))
  · exact (W2_of_ne m ρ c main_arg8 (by decide)).trans (W1_arg m ρ c main_arg8 (by simp))

theorem W2_v1 : W2 m ρ c (Proc.devRef .tc main_v1) = val_main_v1 (F := Ideal) (m ((c : Thread nD τ).loc main_arg2)) :=
  (W2_of_ne m ρ c main_v1 (by decide)).trans (W1_v1 m ρ c)

theorem W2_v3 : W2 m ρ c (Proc.devRef .tc main_v3) = val_main_v3 (F := Ideal) (m ((c : Thread nD τ).loc main_arg2)) :=
  (W2_of_ne m ρ c main_v3 (by decide)).trans (W1_v3 m ρ c)

/-! ## The first region: the encoded and projected node features -/

theorem W2_v5 : W2 m ρ c (Proc.devRef .tc main_v5) = val_main_v9 (F := Ideal) (m ((c : Thread nD τ).loc main_arg0)) (m ((c : Thread nD τ).loc main_arg3)) (m ((c : Thread nD τ).loc main_arg4)) (m ((c : Thread nD τ).loc main_arg5)) := by
  refine (W2_arr m ρ c 4).trans ?_
  refine (Cert.Bridge.Region0.region0_eq (V1 m ρ) c (m ((c : Thread nD τ).loc main_arg4)) (W1_v4 m ρ c)).trans ?_
  show val_main_v9 (F := Ideal) (W1 m ρ c (Proc.devRef .tc main_arg0)) (W1 m ρ c (Proc.devRef .tc main_arg3)) _ (W1 m ρ c (Proc.devRef .tc main_arg5)) = _
  rw [W1_arg m ρ c main_arg0 (by simp), W1_arg m ρ c main_arg3 (by simp), W1_arg m ρ c main_arg5 (by simp)]

/-! ## Between the first two regions: degrees, the normalised aggregate, the bias row -/

theorem W3_v5 : W3 m ρ c (Proc.devRef .tc main_v5) = val_main_v9 (F := Ideal) (m ((c : Thread nD τ).loc main_arg0)) (m ((c : Thread nD τ).loc main_arg3)) (m ((c : Thread nD τ).loc main_arg4)) (m ((c : Thread nD τ).loc main_arg5)) := by
  show after hostOps1 (W2 m ρ c) (Proc.devRef .tc main_v5) = _
  after_results_simp
  exact W2_v5 m ρ c

theorem W3_v1 : W3 m ρ c (Proc.devRef .tc main_v1) = val_main_v1 (F := Ideal) (m ((c : Thread nD τ).loc main_arg2)) := by
  show after hostOps1 (W2 m ρ c) (Proc.devRef .tc main_v1) = _
  after_results_simp
  exact W2_v1 m ρ c

theorem W3_v3 : W3 m ρ c (Proc.devRef .tc main_v3) = val_main_v3 (F := Ideal) (m ((c : Thread nD τ).loc main_arg2)) := by
  show after hostOps1 (W2 m ρ c) (Proc.devRef .tc main_v3) = _
  after_results_simp
  exact W2_v3 m ρ c

theorem W3_arg (b : Ref sig .tc) (hb : b = main_arg7 ∨ b = main_arg8) :
    W3 m ρ c (Proc.devRef .tc b) = m ((c : Thread nD τ).loc b) := by
  show after hostOps1 (W2 m ρ c) (Proc.devRef .tc b) = _
  rcases hb with rfl | rfl
  · after_results_simp; exact W2_arg m ρ c main_arg7 (by simp)
  · after_results_simp; exact W2_arg m ρ c main_arg8 (by simp)

theorem W3_v43 : W3 m ρ c (Proc.devRef .tc main_v43) = shapeCast S1x32 (m ((c : Thread nD τ).loc main_arg6)) shapeCasts_S32_S1x32 := by
  show after hostOps1 (W2 m ρ c) (Proc.devRef .tc main_v43) = _
  after_results_simp
  rw [W2_arg m ρ c main_arg6 (by simp)]
  rfl

theorem W3_v42 : W3 m ρ c (Proc.devRef .tc main_v42)
    = shapeCast S100000x1 (val_main_v45 (F := Ideal) (m ((c : Thread nD τ).loc main_arg2))) shapeCasts_S100000_S100000x1 := by
  show after hostOps1 (W2 m ρ c) (Proc.devRef .tc main_v42) = _
  after_results_simp
  rw [W2_v3 m ρ c]
  rfl

theorem W3_v40 : W3 m ρ c (Proc.devRef .tc main_v40) = val_main_v44 (F := Ideal) (m ((c : Thread nD τ).loc main_arg0)) (m ((c : Thread nD τ).loc main_arg2)) (m ((c : Thread nD τ).loc main_arg3)) (m ((c : Thread nD τ).loc main_arg4)) (m ((c : Thread nD τ).loc main_arg5)) := by
  show after hostOps1 (W2 m ρ c) (Proc.devRef .tc main_v40) = _
  after_results_simp
  rw [W2_v3 m ρ c, W2_v1 m ρ c, W2_v5 m ρ c]
  rfl

/-! ## The second region: the combined and rectified node features -/

theorem W4_v44 : W4 m ρ c (Proc.devRef .tc main_v44) = val_main_v53 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) :=
  (W4_arr m ρ c 4).trans
    (Cert.Bridge.Region1.region1_eq (V3 m ρ) c (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))
      (W3_v40 m ρ c) (W3_v5 m ρ c) (W3_v42 m ρ c) (W3_v43 m ρ c))

theorem W4_v1 : W4 m ρ c (Proc.devRef .tc main_v1) = val_main_v1 (F := Ideal) (m ((c : Thread nD τ).loc main_arg2)) :=
  (W4_of_ne m ρ c main_v1 (by decide)).trans (W3_v1 m ρ c)

theorem W4_v3 : W4 m ρ c (Proc.devRef .tc main_v3) = val_main_v3 (F := Ideal) (m ((c : Thread nD τ).loc main_arg2)) :=
  (W4_of_ne m ρ c main_v3 (by decide)).trans (W3_v3 m ρ c)

theorem W4_arg7 : W4 m ρ c (Proc.devRef .tc main_arg7) = (m ((c : Thread nD τ).loc main_arg7)) :=
  (W4_of_ne m ρ c main_arg7 (by decide)).trans (W3_arg m ρ c main_arg7 (by simp))

theorem W4_arg8 : W4 m ρ c (Proc.devRef .tc main_arg8) = (m ((c : Thread nD τ).loc main_arg8)) :=
  (W4_of_ne m ρ c main_arg8 (by decide)).trans (W3_arg m ρ c main_arg8 (by simp))

/-! ## Between the last two regions: the per-edge features and the scorer's weights -/

theorem W5_v51 : W5 m ρ c (Proc.devRef .tc main_v51) = val_main_v60 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) := by
  show after hostOps2 (W4 m ρ c) (Proc.devRef .tc main_v51) = _
  after_results_simp
  rw [W4_v1 m ρ c, W4_v44 m ρ c]
  rfl

theorem W5_v58 : W5 m ρ c (Proc.devRef .tc main_v58) = val_main_v67 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) := by
  show after hostOps2 (W4 m ρ c) (Proc.devRef .tc main_v58) = _
  after_results_simp
  rw [W4_v3 m ρ c, W4_v44 m ρ c]
  rfl

theorem W5_v61 : W5 m ρ c (Proc.devRef .tc main_v61)
    = shapeCast S1x32 (shapeCast S32 (extractStridedSlice S32x1 ![0, 0] (m ((c : Thread nD τ).loc main_arg7)) slices_S64x1_S32x1_0_0) shapeCasts_S32x1_S32) shapeCasts_S32_S1x32 := by
  show after hostOps2 (W4 m ρ c) (Proc.devRef .tc main_v61) = _
  after_results_simp
  rw [W4_arg7 m ρ c]
  rfl

theorem W5_v64 : W5 m ρ c (Proc.devRef .tc main_v64)
    = shapeCast S1x32 (shapeCast S32 (extractStridedSlice S32x1 ![32, 0] (m ((c : Thread nD τ).loc main_arg7)) slices_S64x1_S32x1_32_0) shapeCasts_S32x1_S32) shapeCasts_S32_S1x32 := by
  show after hostOps2 (W4 m ρ c) (Proc.devRef .tc main_v64) = _
  after_results_simp
  rw [W4_arg7 m ρ c]
  rfl

theorem W5_v65 : W5 m ρ c (Proc.devRef .tc main_v65) = shapeCast S1x1 (m ((c : Thread nD τ).loc main_arg8)) shapeCasts_S1_S1x1 := by
  show after hostOps2 (W4 m ρ c) (Proc.devRef .tc main_v65) = _
  after_results_simp
  rw [W4_arg8 m ρ c]
  rfl

/-! ## The last region and the result -/

/-- The kernel's result is the reference's result stage of the launch arguments. -/
theorem W7_v67 : W7 m ρ c (Proc.devRef .tc main_v67) = val_main_v79 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show after hostOps3 (W6 m ρ c) (Proc.devRef .tc main_v67) = _
  after_results
  refine Eq.trans ?_ (Cert.Bridge.Region2.region2_eq (V5 m ρ) c (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (W5_v51 m ρ c) (W5_v58 m ρ c) (W5_v61 m ρ c) (W5_v64 m ρ c) (W5_v65 m ρ c))
  have h66 : W6 m ρ c (Proc.devRef .tc main_v66) = (dat2 (V5 m ρ) c).arrAt 5 cfg2.N := W6_arr m ρ c 5
  rw [h66]
  rfl

end Cert.Bridge.Fold

end
-- ==== Proof.lean ====
/-
  The certificate of a graph-convolution edge scorer against its plain reference.

  Both programs compute, for every edge e = (s, d) of a graph on 100000 nodes,
      score(e) = logistic( h(s) · w[0:32] + h(d) · w[32:64] + b ),
  where h = relu(agg + h2 · dinv² + b_gcn), h2 = relu(x · W_enc + b_enc) · W_gcn, dinv = (in-degree + 1)^(-1/2) and
  agg(i) = Σ_{e : d(e) = i} h2(s(e)) · dinv(s(e)) · dinv(d(e)).

  The kernel computes h2, h and the score in three tiled regions (the two dense products fed through a narrower
  float format, the score as two lane sums) and leaves degrees, gathers and the aggregating scatter to the host,
  where it uses the reference's own operations. On the extended reals a change of float format is the identity, a
  product into a zero accumulator is the plain sum of products, a sum over 64 terms is the sum of its two halves,
  and the logistic function is 1 / (1 + exp(−x)) by definition; so each region's output array is, index by index,
  the matching stage of the reference (modules Region0, Region1, Region2), the host stretches between them are the
  reference's stages on those arrays (module Fold), and the two results agree. No rewrite was made when the kernel
  was idealized, so that claim is trivial; the three frames are the generated frame runs.
-/
import proofs.«172608_j51359218925816_2_alg».proof.Defs
import proofs.«172608_j51359218925816_2_alg».proof.Proof.Gen.Kernel
import proofs.«172608_j51359218925816_2_alg».proof.Proof.Gen.Kernel.Skeleton
import proofs.«172608_j51359218925816_2_alg».proof.Proof.Gen.Kernel.Launch
import proofs.«172608_j51359218925816_2_alg».proof.Proof.Gen.Kernel.Points
import proofs.«172608_j51359218925816_2_alg».proof.Proof.Gen.Kernel.Frame
import proofs.«172608_j51359218925816_2_alg».proof.Proof.Gen.KernelIdeal
import proofs.«172608_j51359218925816_2_alg».proof.Proof.Gen.KernelIdeal.Skeleton
import proofs.«172608_j51359218925816_2_alg».proof.Proof.Gen.KernelIdeal.Launch
import proofs.«172608_j51359218925816_2_alg».proof.Proof.Gen.KernelIdeal.Points
import proofs.«172608_j51359218925816_2_alg».proof.Proof.Gen.KernelIdeal.Frame
import proofs.«172608_j51359218925816_2_alg».proof.Proof.Gen.ReferenceIdeal
import proofs.«172608_j51359218925816_2_alg».proof.Proof.Gen.ReferenceIdeal.Run
import proofs.«172608_j51359218925816_2_alg».proof.Proof.Gen.ReferenceIdeal.Read
import proofs.«172608_j51359218925816_2_alg».proof.Proof.Gen.Pre_finite_inputs
import proofs.«172608_j51359218925816_2_alg».proof.Proof.KernelRun
import proofs.«172608_j51359218925816_2_alg».proof.Proof.Fold
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: nothing was rewritten. -/
theorem preserves : Cert.preserves_Kernel_KernelIdeal := trivial

/-- From memories agreeing on the arguments the two idealized programs end with the same scores: the kernel's
    result is the reference's result stage of the kernel's arguments, the reference's is that stage of its own. -/
theorem algebraic : Cert.algebraic_KernelIdeal_ReferenceIdeal := by
  intro m ρ m' ρ' _ hagree
  refine ⟨fun c => Cert.KernelIdeal.Gen.W7 m ρ c (Proc.devRef .tc Cert.KernelIdeal.main_v67),
    Cert.KernelIdeal.RunValue.run_named m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v79_eq, e0, e2, e3, e4, e5, e6, e7, e8]
  exact (Cert.Bridge.Fold.W7_v67 m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
